-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100000x128 : Shape := ⟨3, ![4, 100000, 128]⟩
abbrev S16x128 : Shape := ⟨2, ![16, 128]⟩
abbrev S128x128 : Shape := ⟨2, ![128, 128]⟩
abbrev S128 : Shape := ⟨1, ![128]⟩
abbrev S3200000 : Shape := ⟨1, ![3200000]⟩
abbrev S2x3200000 : Shape := ⟨2, ![2, 3200000]⟩
abbrev S_ : Shape := ⟨0, ![]⟩

class Facts : Prop where
  bcast_S_S4x100000x128 : S_.BroadcastsInDim S4x100000x128 (![] : Fin 0 → Fin S4x100000x128.rank)
  reducesTo_S4x100000x128_S_d0_1_2 : S4x100000x128.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg4 : FVec F S128 .f32) (main_arg5 : FVec F S128 .f32) (main_arg6 : FVec F S3200000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3200000 .f32 := Host.absf main_arg6
  let main_cst_10 : FVec F S_ .f32 := constant S_ .f32 0x7F800000#32
  let main_v30 : FVec F S3200000 .f32 := broadcastInDim S3200000 ![] bcast_S_S3200000 main_cst_10
  let main_v31 : IVec S3200000 1 := cmpf .olt main_v29 main_v30
  let main_c_11 : IVec S_ 1 := constantI S_ 1 1#1
  let main_v32 : IVec S_ 1 := (fun x v => Host.reduce IntOp.andi x v reducesTo_S3200000_S_d0 h_S_) main_v31 main_c_11
  let main_v33 : IVec S_ 1 := andi main_v28 main_v32
  main_v33

def fn {F : FTy → Type} [FloatOps F] (main_arg0 : FVec F S4x100000x128 .f32) (main_arg1 : FVec F S16x128 .f32) (main_arg2 : FVec F S16x128 .f32) (main_arg3 : FVec F S128x128 .f32) (main_arg4 : FVec F S128 .f32) (main_arg5 : FVec F S128 .f32) (main_arg6 : FVec F S3200000 .f32) (main_arg7 : IVec S2x3200000 32) : IVec S_ 1 :=
  let main_v0 : FVec F S4x100000x128 .f32 := Host.absf main_arg0
  let main_cst : FVec F S_ .f32 := constant S_ .f32 0x7F800000#32
  let main_v1 : FVec F S4x100000x128 .f32 := broadcastInDim S4x100000x128 ![] bcast_S_S4x100000x128 main_cst
  let main_v2 : IVec S4x100000x128 1 := cmpf .olt main_v0 main_v1
  let main_c : IVec S_ 1 := constantI S_ 1 1#1
  let main_v3 : IVec S_ 1 := (fun x v => Host.reduce IntOp.andi x v reducesTo_S4x100000x128_S_d0_1_2 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S4x100000x128 : Shape := ⟨3, ![4, 100000, 128]⟩
abbrev S16x128 : Shape := ⟨2, ![16, 128]⟩
abbrev S128x128 : Shape := ⟨2, ![128, 128]⟩
abbrev S128 : Shape := ⟨1, ![128]⟩
abbrev S3200000 : Shape := ⟨1, ![3200000]⟩
abbrev S2x3200000 : Shape := ⟨2, ![2, 3200000]⟩
abbrev S400000x128 : Shape := ⟨2, ![400000, 128]⟩
abbrev S128x16 : Shape := ⟨2, ![128, 16]⟩
abbrev S400000x1 : Shape := ⟨2, ![400000, 1]⟩
abbrev S8000x128 : Shape := ⟨2, ![8000, 128]⟩
abbrev S8000x1 : Shape := ⟨2, ![8000, 1]⟩
abbrev S8000x16 : Shape := ⟨2, ![8000, 16]⟩
abbrev S8000 : Shape := ⟨1, ![8000]⟩
abbrev S4x100000 : Shape := ⟨2, ![4, 100000]⟩
abbrev S100000x4 : Shape := ⟨2, ![100000, 4]⟩
abbrev S1x3200000 : Shape := ⟨2, ![1, 3200000]⟩
abbrev S_ : Shape := ⟨0, ![]⟩
abbrev S3200000x1 : Shape := ⟨2, ![3200000, 1]⟩
abbrev S3200000x4 : Shape := ⟨2, ![3200000, 4]⟩
abbrev S1x128 : Shape := ⟨2, ![1, 128]⟩

abbrev nBuf : Space → Nat
  | .hbm => 67
  | .vmem => 17
  | .smem => 0
  | _ => 0

abbrev bufTy : (tb : Table) → Fin (tcTables nBuf tb) → BufTy
  | .hbm, ⟨0, _⟩ => ⟨S4x100000x128, .f32⟩
  | .hbm, ⟨1, _⟩ => ⟨S16x128, .f32⟩
  | .hbm, ⟨2, _⟩ => ⟨S16x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S3200000, .f32⟩
  | .hbm, ⟨7, _⟩ => ⟨S2x3200000, .i32⟩
  | .hbm, ⟨8, _⟩ => ⟨S400000x128, .f32⟩
  | .hbm, ⟨9, _⟩ => ⟨S128x16, .f32⟩
  | .hbm, ⟨10, _⟩ => ⟨S128x16, .f32⟩
  | .hbm, ⟨11, _⟩ => ⟨S128x128, .f32⟩
  | .hbm, ⟨12, _⟩ => ⟨S400000x128, .f32⟩
  | .hbm, ⟨13, _⟩ => ⟨S400000x1, .f32⟩
  | .hbm, ⟨14, _⟩ => ⟨S4x100000, .f32⟩
  | .hbm, ⟨15, _⟩ => ⟨S100000x4, .f32⟩
  | .hbm, ⟨16, _⟩ => ⟨S1x3200000, .i32⟩
  | .hbm, ⟨17, _⟩ => ⟨S3200000, .i32⟩
  | .hbm, ⟨18, _⟩ => ⟨S1x3200000, .i32⟩
  | .hbm, ⟨19, _⟩ => ⟨S3200000, .i32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x4, .f32⟩
  | .hbm, ⟨29, _⟩ => ⟨S_, .f32⟩
  | .hbm, ⟨30, _⟩ => ⟨S3200000x4, .f32⟩
  | .hbm, ⟨31, _⟩ => ⟨S3200000x4, .f32⟩
  | .hbm, ⟨32, _⟩ => ⟨S3200000x1, .f32⟩
  | .hbm, ⟨33, _⟩ => ⟨S3200000x4, .f32⟩
  | .hbm, ⟨34, _⟩ => ⟨S3200000x4, .f32⟩
  | .hbm, ⟨35, _⟩ => ⟨S_, .f32⟩
  | .hbm, ⟨36, _⟩ => ⟨S100000x4, .f32⟩
  | .hbm, ⟨37, _⟩ => ⟨S3200000x1, .i32⟩
  | .hbm, ⟨38, _⟩ => ⟨S100000x4, .f32⟩
  | .hbm, ⟨39, _⟩ => ⟨S4x100000, .f32⟩
  | .hbm, ⟨40, _⟩ => ⟨S4x100000, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x4, .f32⟩
  | .hbm, ⟨50, _⟩ => ⟨S_, .f32⟩
  | .hbm, ⟨51, _⟩ => ⟨S3200000x4, .f32⟩
  | .hbm, ⟨52, _⟩ => ⟨S3200000x4, .f32⟩
  | .hbm, ⟨53, _⟩ => ⟨S3200000x1, .f32⟩
  | .hbm, ⟨54, _⟩ => ⟨S3200000x4, .f32⟩
  | .hbm, ⟨55, _⟩ => ⟨S3200000x4, .f32⟩
  | .hbm, ⟨56, _⟩ => ⟨S_, .f32⟩
  | .hbm, ⟨57, _⟩ => ⟨S100000x4, .f32⟩
  | .hbm, ⟨58, _⟩ => ⟨S3200000x1, .i32⟩
  | .hbm, ⟨59, _⟩ => ⟨S100000x4, .f32⟩
  | .hbm, ⟨60, _⟩ => ⟨S4x100000, .f32⟩
  | .hbm, ⟨61, _⟩ => ⟨S4x100000, .f32⟩
  | .hbm, ⟨62, _⟩ => ⟨S400000x1, .f32⟩
  | .hbm, ⟨63, _⟩ => ⟨S1x128, .f32⟩
  | .hbm, ⟨64, _⟩ => ⟨S1x128, .f32⟩
  | .hbm, ⟨65, _⟩ => ⟨S400000x128, .f32⟩
  | .hbm, ⟨66, _⟩ => ⟨S4x100000x128, .f32⟩
  | .local _ .vmem, ⟨0, _⟩ => ⟨S8000x128, .f32⟩
  | .local _ .vmem, ⟨1, _⟩ => ⟨S8000x128, .f32⟩
  | .local _ .vmem, ⟨2, _⟩ => ⟨S128x16, .f32⟩
  | .local _ .vmem, ⟨3, _⟩ => ⟨S128x16, .f32⟩
  | .local _ .vmem, ⟨4, _⟩ => ⟨S128x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S8000x1, .f32⟩
  | .local _ .vmem, ⟨12, _⟩ => ⟨S8000x1, .f32⟩
  | .local _ .vmem, ⟨13, _⟩ => ⟨S1x128, .f32⟩
  | .local _ .vmem, ⟨14, _⟩ => ⟨S1x128, .f32⟩
  | .local _ .vmem, ⟨15, _⟩ => ⟨S8000x128, .f32⟩
  | .local _ .vmem, ⟨16, _⟩ => ⟨S8000x128, .f32⟩
  | _, _ => ⟨S4x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S4x100000x128_S400000x128 : S4x100000x128.ShapeCasts S400000x128
  transposes_S16x128_S128x16_1_0 : S16x128.Transposes [1, 0] S128x16
  transposes_S128x128_S128x128_1_0 : S128x128.Transposes [1, 0] S128x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S8000x16_S8000 : S8000x16.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S400000x1_S4x100000 : S400000x1.ShapeCasts S4x100000
  transposes_S4x100000_S100000x4_1_0 : S4x100000.Transposes [1, 0] S100000x4
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x4 : S_.BroadcastsInDim S3200000x4 (![] : Fin 0 → Fin S3200000x4.rank)
  bcast_S3200000x1_S3200000x4_0_1 : S3200000x1.BroadcastsInDim S3200000x4 (![0, 1] : Fin 2 → Fin S3200000x4.rank)
  bcast_S_S100000x4 : S_.BroadcastsInDim S100000x4 (![] : Fin 0 → Fin S100000x4.rank)
  transposes_S100000x4_S4x100000_1_0 : S100000x4.Transposes [1, 0] S4x100000
  shapeCasts_S4x100000_S400000x1 : S4x100000.ShapeCasts S400000x1
  shapeCasts_S128_S1x128 : S128.ShapeCasts S1x128
  shapeCasts_S8000x1_S8000x1 : S8000x1.ShapeCasts S8000x1
  broadcasts_S8000x1_S8000x128 : S8000x1.Broadcasts S8000x128
  reduces_S8000x128_S8000 : S8000x128.Reduces [1] S8000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  shapeCasts_S400000x128_S4x100000x128 : S400000x128.ShapeCasts S4x100000x128
  dot_S8000x128_S128x16_S8000x16_1_0_0_1_n_n_wf : DotDims.WF S8000x128 S128x16 S8000x16 [1] [0] [0] [1] [] []
  dot_S8000x128_S128x128_S8000x128_1_0_0_1_n_n_wf : DotDims.WF S8000x128 S128x128 S8000x128 [1] [0] [0] [1] [] []
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S400000x128.size a
  hwx0_4 : ∀ i : grid0.Coords, EltTy.bits .f32 = 32 ∨ (Rect.block (s := S400000x128) S8000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x1.size a ≤ S400000x1.size a
  hwx0_5 : ∀ i : grid0.Coords, EltTy.bits .f32 = 32 ∨ (Rect.block (s := S400000x1) S8000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S400000x128.size a
  hwx1_0 : ∀ i : grid1.Coords, EltTy.bits .f32 = 32 ∨ (Rect.block (s := S400000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S400000x1.size a
  hwx1_1 : ∀ i : grid1.Coords, EltTy.bits .f32 = 32 ∨ (Rect.block (s := S400000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S400000x128.size a
  hwx1_4 : ∀ i : grid1.Coords, EltTy.bits .f32 = 32 ∨ (Rect.block (s := S400000x128) S8000x128.size (cc1_transform_4 i) (hinb1_4 i)).WholeWords (EltTy.packing .f32)

variable [Facts₀]

def dot_S8000x128_S128x16_S8000x16_1_0_0_1_n_n : DotDims S8000x128 S128x16 S8000x16 where
  lhsContracting := [1]
  rhsContracting := [0]
  lhsNonContracting := [0]
  rhsNonContracting := [1]
  lhsBatch := []
  rhsBatch := []
  wf := dot_S8000x128_S128x16_S8000x16_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

abbrev win0_0 : Pipeline.Window sig grid0 :=
  Pipeline.Window.ofSpec (Memref.whole main_v0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S8000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S8000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x100000x128 : Shape := ⟨3, ![4, 100000, 128]⟩
abbrev S16x128 : Shape := ⟨2, ![16, 128]⟩
abbrev S128x128 : Shape := ⟨2, ![128, 128]⟩
abbrev S128 : Shape := ⟨1, ![128]⟩
abbrev S3200000 : Shape := ⟨1, ![3200000]⟩
abbrev S2x3200000 : Shape := ⟨2, ![2, 3200000]⟩
abbrev S4x100000x16 : Shape := ⟨3, ![4, 100000, 16]⟩
abbrev S_ : Shape := ⟨0, ![]⟩
abbrev S4x100000 : Shape := ⟨2, ![4, 100000]⟩
abbrev S4x100000x1 : Shape := ⟨3, ![4, 100000, 1]⟩
abbrev S100000x4 : Shape := ⟨2, ![100000, 4]⟩
abbrev S1x3200000 : Shape := ⟨2, ![1, 3200000]⟩
abbrev S3200000x1 : Shape := ⟨2, ![3200000, 1]⟩
abbrev S3200000x4 : Shape := ⟨2, ![3200000, 4]⟩
abbrev S1x1x128 : Shape := ⟨3, ![1, 1, 128]⟩

abbrev nBuf : Space → Nat
  | .hbm => 103
  | .vmem => 0
  | .smem => 0
  | _ => 0

abbrev bufTy : (tb : Table) → Fin (tcTables nBuf tb) → BufTy
  | .hbm, ⟨0, _⟩ => ⟨S4x100000x128, .f32⟩
  | .hbm, ⟨1, _⟩ => ⟨S16x128, .f32⟩
  | .hbm, ⟨2, _⟩ => ⟨S16x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S3200000, .f32⟩
  | .hbm, ⟨7, _⟩ => ⟨S2x3200000, .i32⟩
  | .hbm, ⟨8, _⟩ => ⟨S4x100000x16, .f32⟩
  | .hbm, ⟨9, _⟩ => ⟨S4x100000x16, .f32⟩
  | .hbm, ⟨10, _⟩ => ⟨S4x100000x128, .f32⟩
  | .hbm, ⟨11, _⟩ => ⟨S4x100000x16, .f32⟩
  | .hbm, ⟨12, _⟩ => ⟨S_, .f32⟩
  | .hbm, ⟨13, _⟩ => ⟨S4x100000, .f32⟩
  | .hbm, ⟨14, _⟩ => ⟨S4x100000x1, .f32⟩
  | .hbm, ⟨15, _⟩ => ⟨S_, .f32⟩
  | .hbm, ⟨16, _⟩ => ⟨S4x100000x1, .f32⟩
  | .hbm, ⟨17, _⟩ => ⟨S4x100000x1, .f32⟩
  | .hbm, ⟨18, _⟩ => ⟨S4x100000, .f32⟩
  | .hbm, ⟨19, _⟩ => ⟨S100000x4, .f32⟩
  | .hbm, ⟨20, _⟩ => ⟨S_, .f32⟩
  | .hbm, ⟨21, _⟩ => ⟨S100000x4, .f32⟩
  | .hbm, ⟨22, _⟩ => ⟨S100000x4, .f32⟩
  | .hbm, ⟨23, _⟩ => ⟨S1x3200000, .i32⟩
  | .hbm, ⟨24, _⟩ => ⟨S3200000, .i32⟩
  | .hbm, ⟨25, _⟩ => ⟨S1x3200000, .i32⟩
  | .hbm, ⟨26, _⟩ => ⟨S3200000, .i32⟩
  | .hbm, ⟨27, _⟩ => ⟨S3200000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x4, .f32⟩
  | .hbm, ⟨37, _⟩ => ⟨S3200000x4, .f32⟩
  | .hbm, ⟨38, _⟩ => ⟨S3200000x4, .f32⟩
  | .hbm, ⟨39, _⟩ => ⟨S_, .f32⟩
  | .hbm, ⟨40, _⟩ => ⟨S100000x4, .f32⟩
  | .hbm, ⟨41, _⟩ => ⟨S3200000x1, .i32⟩
  | .hbm, ⟨42, _⟩ => ⟨S100000x4, .f32⟩
  | .hbm, ⟨43, _⟩ => ⟨S4x100000, .f32⟩
  | .hbm, ⟨44, _⟩ => ⟨S4x100000x1, .f32⟩
  | .hbm, ⟨45, _⟩ => ⟨S4x100000x1, .f32⟩
  | .hbm, ⟨46, _⟩ => ⟨S_, .f32⟩
  | .hbm, ⟨47, _⟩ => ⟨S100000x4, .f32⟩
  | .hbm, ⟨48, _⟩ => ⟨S100000x4, .f32⟩
  | .hbm, ⟨49, _⟩ => ⟨S1x3200000, .i32⟩
  | .hbm, ⟨50, _⟩ => ⟨S3200000, .i32⟩
  | .hbm, ⟨51, _⟩ => ⟨S1x3200000, .i32⟩
  | .hbm, ⟨52, _⟩ => ⟨S3200000, .i32⟩
  | .hbm, ⟨53, _⟩ => ⟨S3200000x1, .f32⟩
  | .hbm, ⟨54, _⟩ => ⟨S_, .i32⟩
  | .hbm, ⟨55, _⟩ => ⟨S3200000, .i32⟩
  | .hbm, ⟨56, _⟩ => ⟨S3200000, .i1⟩
  | .hbm, ⟨57, _⟩ => ⟨S_, .i32⟩
  | .hbm, ⟨58, _⟩ => ⟨S3200000, .i32⟩
  | .hbm, ⟨59, _⟩ => ⟨S3200000, .i32⟩
  | .hbm, ⟨60, _⟩ => ⟨S3200000, .i32⟩
  | .hbm, ⟨61, _⟩ => ⟨S3200000x1, .i32⟩
  | .hbm, ⟨62, _⟩ => ⟨S3200000x4, .f32⟩
  | .hbm, ⟨63, _⟩ => ⟨S3200000x4, .f32⟩
  | .hbm, ⟨64, _⟩ => ⟨S3200000x4, .f32⟩
  | .hbm, ⟨65, _⟩ => ⟨S_, .f32⟩
  | .hbm, ⟨66, _⟩ => ⟨S100000x4, .f32⟩
  | .hbm, ⟨67, _⟩ => ⟨S3200000x1, .i32⟩
  | .hbm, ⟨68, _⟩ => ⟨S100000x4, .f32⟩
  | .hbm, ⟨69, _⟩ => ⟨S4x100000, .f32⟩
  | .hbm, ⟨70, _⟩ => ⟨S4x100000x1, .f32⟩
  | .hbm, ⟨71, _⟩ => ⟨S4x100000x1, .f32⟩
  | .hbm, ⟨72, _⟩ => ⟨S4x100000x128, .f32⟩
  | .hbm, ⟨73, _⟩ => ⟨S4x100000x128, .f32⟩
  | .hbm, ⟨74, _⟩ => ⟨S_, .f32⟩
  | .hbm, ⟨75, _⟩ => ⟨S4x100000, .f32⟩
  | .hbm, ⟨76, _⟩ => ⟨S4x100000x1, .f32⟩
  | .hbm, ⟨77, _⟩ => ⟨S_, .f32⟩
  | .hbm, ⟨78, _⟩ => ⟨S4x100000x1, .f32⟩
  | .hbm, ⟨79, _⟩ => ⟨S4x100000x1, .f32⟩
  | .hbm, ⟨80, _⟩ => ⟨S4x100000x128, .f32⟩
  | .hbm, ⟨81, _⟩ => ⟨S4x100000x128, .f32⟩
  | .hbm, ⟨82, _⟩ => ⟨S4x100000x128, .f32⟩
  | .hbm, ⟨83, _⟩ => ⟨S_, .f32⟩
  | .hbm, ⟨84, _⟩ => ⟨S4x100000, .f32⟩
  | .hbm, ⟨85, _⟩ => ⟨S4x100000x1, .f32⟩
  | .hbm, ⟨86, _⟩ => ⟨S_, .f32⟩
  | .hbm, ⟨87, _⟩ => ⟨S4x100000x1, .f32⟩
  | .hbm, ⟨88, _⟩ => ⟨S4x100000x1, .f32⟩
  | .hbm, ⟨89, _⟩ => ⟨S4x100000x128, .f32⟩
  | .hbm, ⟨90, _⟩ => ⟨S4x100000x128, .f32⟩
  | .hbm, ⟨91, _⟩ => ⟨S_, .f32⟩
  | .hbm, ⟨92, _⟩ => ⟨S4x100000x1, .f32⟩
  | .hbm, ⟨93, _⟩ => ⟨S4x100000x1, .f32⟩
  | .hbm, ⟨94, _⟩ => ⟨S4x100000x1, .f32⟩
  | .hbm, ⟨95, _⟩ => ⟨S4x100000x128, .f32⟩
  | .hbm, ⟨96, _⟩ => ⟨S4x100000x128, .f32⟩
  | .hbm, ⟨97, _⟩ => ⟨S1x1x128, .f32⟩
  | .hbm, ⟨98, _⟩ => ⟨S4x100000x128, .f32⟩
  | .hbm, ⟨99, _⟩ => ⟨S4x100000x128, .f32⟩
  | .hbm, ⟨100, _⟩ => ⟨S1x1x128, .f32⟩
  | .hbm, ⟨101, _⟩ => ⟨S4x100000x128, .f32⟩
  | .hbm, ⟨102, _⟩ => ⟨S4x100000x128, .f32⟩
  | _, _ => ⟨S4x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_5 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]

class Facts₀ : Prop where
  reducesTo_S4x100000x16_S4x100000_d2 : S4x100000x16.ReducesTo [2] S4x100000
  h_S_ : 0 < S_.numel
  bcast_S4x100000_S4x100000x1_0_1 : S4x100000.BroadcastsInDim S4x100000x1 (![0, 1] : Fin 2 → Fin S4x100000x1.rank)
  bcast_S_S4x100000x1 : S_.BroadcastsInDim S4x100000x1 (![] : Fin 0 → Fin S4x100000x1.rank)
  shapeCasts_S4x100000x1_S4x100000 : S4x100000x1.ShapeCasts S4x100000
  transposes_S4x100000_S100000x4_1_0 : S4x100000.Transposes [1, 0] S100000x4
  bcast_S_S100000x4 : S_.BroadcastsInDim S100000x4 (![] : Fin 0 → Fin S100000x4.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x4_0_1 : S3200000x1.BroadcastsInDim S3200000x4 (![0, 1] : Fin 2 → Fin S3200000x4.rank)
  transposes_S100000x4_S4x100000_1_0 : S100000x4.Transposes [1, 0] S4x100000
  bcast_S4x100000x1_S4x100000x128_0_1_2 : S4x100000x1.BroadcastsInDim S4x100000x128 (![0, 1, 2] : Fin 3 → Fin S4x100000x128.rank)
  reducesTo_S4x100000x128_S4x100000_d2 : S4x100000x128.ReducesTo [2] S4x100000
  bcast_S128_S1x1x128_2 : S128.BroadcastsInDim S1x1x128 (![2] : Fin 1 → Fin S1x1x128.rank)
  bcast_S1x1x128_S4x100000x128_0_1_2 : S1x1x128.BroadcastsInDim S4x100000x128 (![0, 1, 2] : Fin 3 → Fin S4x100000x128.rank)
  dot_S4x100000x128_S16x128_S4x100000x16_2_1_01_0_n_n_wf : DotDims.WF S4x100000x128 S16x128 S4x100000x16 [2] [1] [0, 1] [0] [] []
  dot_S4x100000x128_S128x128_S4x100000x128_2_1_01_0_n_n_wf : DotDims.WF S4x100000x128 S128x128 S4x100000x128 [2] [1] [0, 1] [0] [] []
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1

variable [Facts₀]

def dot_S4x100000x128_S16x128_S4x100000x16_2_1_01_0_n_n : DotDims S4x100000x128 S16x128 S4x100000x16 where
  lhsContracting := [2]
  rhsContracting := [1]
  lhsNonContracting := [0, 1]
  rhsNonContracting := [0]
  lhsBatch := []
  rhsBatch := []
  wf := dot_S4x100000x128_S16x128_S4x100000x16_2_1_01_0_n_n_wf
def dot_S4x100000x128_S128x128_S4x100000x128_2_1_01_0_n_n : DotDims S4x100000x128 S128x128 S4x100000x128 where
  lhsContracting := [2]
  rhsContracting := [1]
  lhsNonContracting := [0, 1]
  rhsNonContracting := [0]
  lhsBatch := []
  rhsBatch := []
  wf := dot_S4x100000x128_S128x128_S4x100000x128_2_1_01_0_n_n_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

class Facts : Prop extends Facts₀ where

variable [Facts]
-- ==== Proof.Run.lean ====
/-
  The idealized kernel program's run, with its result named.

  The program is five stretches in a row: host operations, the projection region, host operations (the two rounds of
  sparse propagation), the normalisation region, and the closing reshape.  The buffer contents at each boundary are a
  fold through the program from the launch memory (`Gen.W0` … `Gen.W5`).  Every weakly fair execution terminates,
  faults nowhere, and ends with every unscoped buffer at the last boundary's contents: in particular the result buffer
  holds `Gen.W5` at the result, and each argument holds what it held at launch.
-/
import proofs.«166303_j76166950027414_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: it terminates without a fault, the result buffer ends at the last boundary's
    contents, and the arguments end as launched. -/
theorem run : θ_run defs (onTc (τ := τ) (main (F := F))) ⟨m, fun _ => 0, ρ⟩ (fun r => ∀ c : Dev nD,
      r.2.mem ((c.tc : Thread nD τ).loc main_v49) = W5 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v49 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.Mid.lean ====
/-
  The two rounds of sparse propagation between the two regions.

  One round sends an [100000, 4] array A to the array whose row r is the sum, over the edges e whose row index is r,
  of the edge's value times 0.7 times row col(e) of A: a gather of the rows of A at the edges' column indices (negative
  indices wrapped once by the row count, then clamped), a scaling, and a scatter-add at the edges' row indices.  The
  gather and the scatter-add are used only as the functions the programs name: nothing here depends on which
  elements they read.  The kernel program scales AFTER gathering, the reference BEFORE: a gather reads one entry of
  its operand per output entry, so gathering a scaled array is scaling the gathered one.

  The weights that enter the normalisation: with w the [4, 100000] starting weights, w + (round w^T)^T + (round (round w^T))^T.
-/
import proofs.«166303_j76166950027414_1_alg».proof.KernelIdeal
import proofs.«166303_j76166950027414_1_alg».proof.Proof.Gen.KernelIdeal
import proofs.«166303_j76166950027414_1_alg».proof.Proof.Gen.ReferenceIdeal.Read
import Idealize.ShloMosaic.Lib.Pipeline.Value
import Idealize.ShloMosaic.Lib.ValueIdx

noncomputable section

namespace Cert.Mid

open Idealize.ShloMosaic Cert.KernelIdeal Cert.KernelIdeal.Gen

/-- Gathering a scaled array is scaling the gathered array: each output entry reads one operand entry. -/
theorem gather_scale {s si t : Shape} {w : Nat} (d : GatherDims s si t) (A : FVec Ideal s .f32) (idx : IVec si w) (b : BitVec 32)
    (hs : (⟨0, ![]⟩ : Shape).BroadcastsInDim s ![]) (ht : (⟨0, ![]⟩ : Shape).BroadcastsInDim t ![]) :
    Host.gather d (mulf A (broadcastInDim s ![] hs (constant (F := Ideal) ⟨0, ![]⟩ .f32 b))) idx
      = mulf (Host.gather d A idx) (broadcastInDim t ![] ht (constant (F := Ideal) ⟨0, ![]⟩ .f32 b)) := by
  funext j
  show A _ * broadcastInDim s ![] hs (constant (F := Ideal) ⟨0, ![]⟩ .f32 b) _
    = A _ * broadcastInDim t ![] ht (constant (F := Ideal) ⟨0, ![]⟩ .f32 b) j
  rw [broadcastInDim_apply _ hs _ _ ValueIdx.ix0 (fun a => a.elim0),
    broadcastInDim_apply _ ht _ _ ValueIdx.ix0 (fun a => a.elim0)]

variable (ei : (⟨S2x3200000, .i32⟩ : BufTy).Contents (Elt Ideal)) (ev : (⟨S3200000, .f32⟩ : BufTy).Contents (Elt Ideal))

/-- The edges' row indices, as a column. -/
def rows : (⟨S3200000x1, .i32⟩ : BufTy).Contents (Elt Ideal) :=
  broadcastInDim S3200000x1 ![0] bcast_S3200000_S3200000x1_0
    (shapeCast S3200000 (extractStridedSlice S1x3200000 ![0, 0] ei slices_S2x3200000_S1x3200000_0_0) shapeCasts_S1x3200000_S3200000)

/-- The edges' column indices. -/
def cols : (⟨S3200000, .i32⟩ : BufTy).Contents (Elt Ideal) :=
  shapeCast S3200000 (extractStridedSlice S1x3200000 ![1, 0] ei slices_S2x3200000_S1x3200000_1_0) shapeCasts_S1x3200000_S3200000

/-- The column indices with a negative index wrapped once by the row count, as a column. -/
def colIdx : (⟨S3200000x1, .i32⟩ : BufTy).Contents (Elt Ideal) :=
  broadcastInDim S3200000x1 ![0] bcast_S3200000_S3200000x1_0
    (select (cmpi .slt (cols ei) (broadcastInDim S3200000 ![] bcast_S_S3200000 (constantI S_ 32 0#32)))
      (addi (cols ei) (broadcastInDim S3200000 ![] bcast_S_S3200000 (constantI S_ 32 100000#32))) (cols ei))

/-- The edges' values, repeated along the 4 batch columns. -/
def evCols : (⟨S3200000x4, .f32⟩ : BufTy).Contents (Elt Ideal) :=
  broadcastInDim S3200000x4 ![0, 1] bcast_S3200000x1_S3200000x4_0_1 (broadcastInDim S3200000x1 ![0] bcast_S3200000_S3200000x1_0 ev)

/-- One round of propagation. -/
def round (A : (⟨S100000x4, .f32⟩ : BufTy).Contents (Elt Ideal)) : (⟨S100000x4, .f32⟩ : BufTy).Contents (Elt Ideal) :=
  Host.scatterAdd scatter_S100000x4_S3200000x1_S3200000x4_1_0_0_1
    (broadcastInDim S100000x4 ![] bcast_S_S100000x4 (constant (F := Ideal) S_ .f32 0x00000000#32)) (rows ei)
    (mulf (evCols ev) (mulf (Host.gather gather_S100000x4_S3200000x1_S3200000x4_1_0_n_n_0_1_14 A (colIdx ei))
      (broadcastInDim S3200000x4 ![] bcast_S_S3200000x4 (constant (F := Ideal) S_ .f32 0x3F333333#32))))

/-- The weights that enter the normalisation, from the starting weights as a [400000, 1] column, as a column. -/
def weights (w : (⟨S400000x1, .f32⟩ : BufTy).Contents (Elt Ideal)) : (⟨S400000x1, .f32⟩ : BufTy).Contents (Elt Ideal) :=
  shapeCast S400000x1
    (addf (F := Ideal) (φ := .f32) (addf (F := Ideal) (φ := .f32) (shapeCast S4x100000 w shapeCasts_S400000x1_S4x100000)
      (transpose S4x100000 [1, 0]
        (round ei ev (transpose S100000x4 [1, 0] (shapeCast S4x100000 w shapeCasts_S400000x1_S4x100000) transposes_S4x100000_S100000x4_1_0))
        transposes_S100000x4_S4x100000_1_0))
      (transpose S4x100000 [1, 0]
        (round ei ev (round ei ev (transpose S100000x4 [1, 0] (shapeCast S4x100000 w shapeCasts_S400000x1_S4x100000) transposes_S4x100000_S100000x4_1_0)))
        transposes_S100000x4_S4x100000_1_0))
    shapeCasts_S4x100000_S400000x1

open Cert.ReferenceIdeal.Read in
/-- The reference's first round is one round from its transposed starting weights. -/
theorem ref_round1 (x0 : (⟨S4x100000x128, .f32⟩ : BufTy).Contents (Elt Ideal)) (x1 x2 : (⟨S16x128, .f32⟩ : BufTy).Contents (Elt Ideal)) :
    val_main_v28 (F := Ideal) x0 x1 x2 ev ei = round ei ev (val_main_v9 (F := Ideal) x0 x1 x2) := by
  unfold val_main_v28 val_main_v25 val_main_v23 val_main_v11 val_main_v10 val_main_cst_1
  rw [gather_scale _ _ _ _ _ Cert.KernelIdeal.Gen.bcast_S_S3200000x4]
  rfl

open Cert.ReferenceIdeal.Read in
/-- The reference's second round is one round from its first. -/
theorem ref_round2 (x0 : (⟨S4x100000x128, .f32⟩ : BufTy).Contents (Elt Ideal)) (x1 x2 : (⟨S16x128, .f32⟩ : BufTy).Contents (Elt Ideal)) :
    val_main_v50 (F := Ideal) x0 x1 x2 ev ei = round ei ev (val_main_v28 (F := Ideal) x0 x1 x2 ev ei) := by
  unfold val_main_v50 val_main_v47 val_main_v45 val_main_v33 val_main_v32 val_main_cst_4
  rw [gather_scale _ _ _ _ _ Cert.KernelIdeal.Gen.bcast_S_S3200000x4]
  rfl

end Cert.Mid

end
-- ==== Proof.HostK.lean ====
/-
  What the host operations of the idealized kernel program leave in the buffers the two regions read, and in the result.

  Before the projection region: the input rows flattened to [400000, 128] and the three projection matrices transposed.
  Between the regions: the value projection is left alone; the starting weights go through the two rounds of sparse
  propagation (`Mid.weights`, a function of the edge indices, the edge values and the starting weights); gain and offset
  become [1, 128] rows.  After the normalisation region: the [400000, 128] rows are cut back into [4, 100000, 128].
  The edge arrays are written by nothing, so between the regions they still hold what they held at launch.
-/
import proofs.«166303_j76166950027414_1_alg».proof.Proof.Gen.KernelIdeal.Frame
import proofs.«166303_j76166950027414_1_alg».proof.Proof.Mid
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the projection region -/

theorem V1_v0 : (V1 m ρ c main_v0 : S400000x128.Idx → EReal)
    = shapeCast S400000x128 (m ((c : Thread nD τ).loc main_arg0)) shapeCasts_S4x100000x128_S400000x128 := by
  show StableHlo.after hostOps0 (W0 m ρ c) (Proc.devRef .tc main_v0) = _
  after_results <;> rfl

theorem V1_v1 : (V1 m ρ c main_v1 : S128x16.Idx → EReal)
    = transpose S128x16 [1, 0] (m ((c : Thread nD τ).loc main_arg1)) transposes_S16x128_S128x16_1_0 := by
  show StableHlo.after hostOps0 (W0 m ρ c) (Proc.devRef .tc main_v1) = _
  after_results <;> rfl

theorem V1_v2 : (V1 m ρ c main_v2 : S128x16.Idx → EReal)
    = transpose S128x16 [1, 0] (m ((c : Thread nD τ).loc main_arg2)) transposes_S16x128_S128x16_1_0 := by
  show StableHlo.after hostOps0 (W0 m ρ c) (Proc.devRef .tc main_v2) = _
  after_results <;> rfl

theorem V1_v3 : (V1 m ρ c main_v3 : S128x128.Idx → EReal)
    = transpose S128x128 [1, 0] (m ((c : Thread nD τ).loc main_arg3)) transposes_S128x128_S128x128_1_0 := by
  show StableHlo.after hostOps0 (W0 m ρ c) (Proc.devRef .tc main_v3) = _
  after_results <;> rfl

/-! ## The buffers no operation before the second region writes -/

theorem W2_arg4 : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results <;> rfl

theorem W2_arg5 : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results <;> rfl

theorem W2_arg6 : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results <;> rfl

theorem W2_arg7 : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results <;> rfl

/-! ## Between the regions -/

/-- The value projection reaches the second region as the first left it. -/
theorem V3_v4_0 : V3 m ρ c main_v4_0 = (dat0 (V1 m ρ) c).arrAt 4 cfg0.N := by
  show StableHlo.after hostOps1 (W2 m ρ c) (Proc.devRef .tc main_v4_0) = _
  after_results_simp
  exact W2_arr m ρ c 4

/-- The weights column the second region reads: the propagation applied to the first region's weights column. -/
theorem V3_v45 : (V3 m ρ c main_v45 : S400000x1.Idx → EReal)
    = Cert.Mid.weights (m ((c : Thread nD τ).loc main_arg7)) (m ((c : Thread nD τ).loc main_arg6)) ((dat0 (V1 m ρ) c).arrAt 5 cfg0.N) := by
  rw [← W2_arg7 m ρ c, ← W2_arg6 m ρ c, ← W2_arr m ρ c 5]
  show StableHlo.after hostOps1 (W2 m ρ c) (Proc.devRef .tc main_v45) = _
  after_results_simp <;> rfl

theorem V3_v46 : (V3 m ρ c main_v46 : S1x128.Idx → EReal)
    = shapeCast S1x128 (m ((c : Thread nD τ).loc main_arg4)) shapeCasts_S128_S1x128 := by
  rw [← W2_arg4 m ρ c]
  show StableHlo.after hostOps1 (W2 m ρ c) (Proc.devRef .tc main_v46) = _
  after_results_simp <;> rfl

theorem V3_v47 : (V3 m ρ c main_v47 : S1x128.Idx → EReal)
    = shapeCast S1x128 (m ((c : Thread nD τ).loc main_arg5)) shapeCasts_S128_S1x128 := by
  rw [← W2_arg5 m ρ c]
  show StableHlo.after hostOps1 (W2 m ρ c) (Proc.devRef .tc main_v47) = _
  after_results_simp <;> rfl

/-! ## After the normalisation region -/

theorem W5_v49 : (W5 m ρ c (Proc.devRef .tc main_v49) : S4x100000x128.Idx → EReal)
    = shapeCast S4x100000x128 ((dat1 (V3 m ρ) c).arrAt 4 cfg1.N) shapeCasts_S400000x128_S4x100000x128 := by
  rw [← W4_arr m ρ c 4]
  show StableHlo.after hostOps2 (W4 m ρ c) (Proc.devRef .tc main_v49) = _
  after_results <;> rfl

end Cert.KernelIdeal.HostValue

end
-- ==== Proof.Spec.lean ====
/-
  The mathematics both programs compute, as functions of whole arrays over the extended reals.

  Rows.  A node is a row of 128 features.  Its three projections are plain sums of products against the
  projection matrices; its starting weight is the mean over the 16 key/query channels of key times query,
  the mean taken as the sum divided by the number 16.

  Layer normalisation of a row v with gain γ and offset β: with μ the sum of v divided by 128 and σ² the sum of
  the squared deviations divided by 128, entry c is (v c − μ) · (σ² + ε)^(−1/2) · γ c + β c.  Every constant is
  kept as the 32-bit word both programs carry, so the same word stands on both sides and is never evaluated.

  Arrays.  The flattened node axis has 400000 = 4 · 100000 rows.
-/
import Idealize.ShloMosaic.PureOps.Ideal
import Idealize.ShloMosaic.Lib.ValueIdx

noncomputable section

namespace Cert.Spec

open Idealize.ShloMosaic Idealize.ShloMosaic.ValueIdx

/-- The starting weight of one row `x`: the mean over the 16 channels `q` of (x · wk q) · (x · wq q). -/
def rowWeight (x : Fin 128 → EReal) (wk wq : Fin 128 → Fin 16 → EReal) : EReal :=
  Ideal.div (∑ q : Fin 16, (∑ k : Fin 128, x k * wk k q) * (∑ k : Fin 128, x k * wq k q))
    (Ideal.ofBits .f32 0x41800000#32)

/-- The mean of a row of 128 entries: their sum divided by the number 128. -/
def rowMean (v : Fin 128 → EReal) : EReal :=
  Ideal.div (∑ k : Fin 128, v k) (Ideal.ofBits .f32 0x43000000#32)

/-- Layer normalisation of the row `v` with gain `γ` and offset `β`, at entry `c`. -/
def lnRow (v γ β : Fin 128 → EReal) (c : Fin 128) : EReal :=
  (v c - rowMean v) *
      Ideal.rsqrt (rowMean (fun k => (v k - rowMean v) * (v k - rowMean v)) + Ideal.ofBits .f32 0x3727C5AC#32) *
      γ c + β c

/-- The value projection of every row: `X · W` for `X : [400000, 128]`, `W : [128, 128]` (already transposed). -/
def vals (X : (⟨2, ![400000, 128]⟩ : Shape).Idx → EReal) (W : (⟨2, ![128, 128]⟩ : Shape).Idx → EReal) :
    (⟨2, ![400000, 128]⟩ : Shape).Idx → EReal :=
  fun j => ∑ k : Fin 128, X (ix2 (j 0) k) * W (ix2 k (j 1))

/-- The starting weight of every row, as a column: `Wk`, `Wq : [128, 16]` (already transposed). -/
def w0col (X : (⟨2, ![400000, 128]⟩ : Shape).Idx → EReal) (Wk Wq : (⟨2, ![128, 16]⟩ : Shape).Idx → EReal) :
    (⟨2, ![400000, 1]⟩ : Shape).Idx → EReal :=
  fun j => rowWeight (fun k => X (ix2 (j 0) k)) (fun k q => Wk (ix2 k q)) (fun k q => Wq (ix2 k q))

/-- Every row of `A` scaled by its weight in the column `w`, then layer-normalised with the gain row `g` and the
    offset row `b`. -/
def normed (A : (⟨2, ![400000, 128]⟩ : Shape).Idx → EReal) (w : (⟨2, ![400000, 1]⟩ : Shape).Idx → EReal)
    (g b : (⟨2, ![1, 128]⟩ : Shape).Idx → EReal) : (⟨2, ![400000, 128]⟩ : Shape).Idx → EReal :=
  fun j => lnRow (fun k => A (ix2 (j 0) k) * w (ix2 (j 0) (0 : Fin 1))) (fun k => g (ix2 (0 : Fin 1) k))
    (fun k => b (ix2 (0 : Fin 1) k)) (j 1)

end Cert.Spec

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Proj.lean ====
/-
  The projection region, whatever its arrays hold when it is entered: after its 50 grid points
  * the value array is the product of the array of rows with the value matrix, row by row;
  * the weight column holds, at row r, the starting weight of row r.

  The payloads.  At the ideal values rounding to the narrow format is the identity and a cast to the same shape changes
  nothing, so the value projection of a block of rows is, at (r, o), the sum over k < 128 of x(r, k) · W(k, o), and the
  starting weight of a block is, at (r, 0), the row weight of row r: the mean over the 16 channels of the key projection
  times the query projection, the mean taken as the sum divided by the number 16.

  The blocks.  Point t stages rows 8000 t … 8000 t + 7999 and the three matrices whole, and writes back the same rows of
  the two results; so what point t writes back is the block at t of one function of the arrays, and the 50 blocks
  cover the 400000 rows: row r lies in the block of point r / 8000.
-/
import proofs.«166303_j76166950027414_1_alg».proof.Proof.Spec
import proofs.«166303_j76166950027414_1_alg».proof.Proof.LibPlainDot
import proofs.«166303_j76166950027414_1_alg».proof.Proof.LibRowReduce
import proofs.«166303_j76166950027414_1_alg».proof.Proof.LibColumn
import proofs.«166303_j76166950027414_1_alg».proof.Proof.Gen.KernelIdeal.Frame
import Idealize.ShloMosaic.Lib.Pipeline.Value

noncomputable section

namespace Cert.KernelIdeal.Proj

open Idealize.ShloMosaic Idealize.ShloMosaic.TcCoe Idealize.SL.Sem Idealize.ShloMosaic.ValueIdx
open Idealize.ShloMosaic.Pipeline (Dat)

/-! ## The payloads at an index -/

/-- The printed dimension numbers of the 8000×128 by 128×128 product are the plain ones. -/
theorem dot128_eq : dot_S8000x128_S128x128_S8000x128_1_0_0_1_n_n = DotDims.plain 8000 128 128 := rfl

/-- The printed dimension numbers of the 8000×128 by 128×16 product are the plain ones. -/
theorem dot16_eq : dot_S8000x128_S128x16_S8000x16_1_0_0_1_n_n = DotDims.plain 8000 128 16 := rfl

/-- Rounding a block of rows to the narrow format is the identity at the ideal values. -/
theorem pay1_apply (x0 : Vec Ideal S8000x128 .f32) (i : S8000x128.Idx) : Gen.k0_pay1 (F := Ideal) x0 i = x0 i := by
  unfold Gen.k0_pay1
  rw [truncf_apply, shapeCast_self]

/-- The value projection of a block at (r, o). -/
theorem pay2_apply (x0 : Vec Ideal S8000x128 .f32) (x3 : Vec Ideal S128x128 .f32) (r : Fin 8000) (o : Fin 128) :
    Gen.k0_pay2 (F := Ideal) x0 x3 (ix2 r o) = ∑ k : Fin 128, x0 (ix2 r k) * x3 (ix2 k o) := by
  unfold Gen.k0_pay2
  rw [shapeCast_self, dot128_eq]
  refine (Cert.LibPlainDot.matmul_plain 8000 128 128 none (Gen.k0_pay1 (F := Ideal) x0) _ (ix2 r o)).trans ?_
  refine Finset.sum_congr rfl fun k _ => ?_
  rw [pay1_apply, truncf_apply]

/-- One of the two 16-channel projections of a block at (r, q). -/
theorem proj16_apply (x0 : Vec Ideal S8000x128 .f32) (w : Vec Ideal S128x16 .f32) (r : Fin 8000) (q : Fin 16) :
    matmul (F := Ideal) dot_S8000x128_S128x16_S8000x16_1_0_0_1_n_n none (Gen.k0_pay1 (F := Ideal) x0)
        (truncf .bf16 (shapeCast S128x16 w Gen.shapeCasts_S128x16_S128x16) Gen.bitsLt_bf16_f32)
        (constant (F := Ideal) S8000x16 .f32 0x00000000#32) (ix2 r q)
      = ∑ k : Fin 128, x0 (ix2 r k) * w (ix2 k q) := by
  rw [shapeCast_self, dot16_eq]
  refine (Cert.LibPlainDot.matmul_plain 8000 128 16 none (Gen.k0_pay1 (F := Ideal) x0) _ (ix2 r q)).trans ?_
  refine Finset.sum_congr rfl fun k _ => ?_
  rw [pay1_apply, truncf_apply]

/-- The starting weight of a block at (r, u), u the one coordinate of the unit axis. -/
theorem pay3_apply (x0 : Vec Ideal S8000x128 .f32) (x1 x2 : Vec Ideal S128x16 .f32) (r : Fin 8000) (u : Fin 1) :
    Gen.k0_pay3 (F := Ideal) x0 x1 x2 (ix2 r u)
      = Cert.Spec.rowWeight (fun k => x0 (ix2 r k)) (fun k q => x1 (ix2 k q)) (fun k q => x2 (ix2 k q)) := by
  unfold Gen.k0_pay3
  rw [divf_apply, broadcast_apply]
  refine congrArg (fun s => Ideal.div s (Ideal.ofBits .f32 0x41800000#32)) ?_
  refine (Cert.LibColumn.shapeCast_a_a1_apply _ Gen.shapeCasts_S8000_S8000x1 r u).trans ?_
  refine (Cert.LibRowReduce.rowSum_apply _ 0x00000000#32 Gen.reduces_S8000x16_S8000 (.inl rfl) rfl r).trans ?_
  refine Finset.sum_congr rfl fun q _ => ?_
  rw [mulf_apply]
  exact congr (congrArg HMul.hMul (proj16_apply x0 x1 r q)) (proj16_apply x0 x2 r q)

/-! ## The index maps -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows (the rows read, the two results) sit at block (t, 0) at point t,
    the three matrices at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The staged blocks, read off the arrays -/

/-- The block of rows at point t is rows 8000 t … 8000 t + 7999 of the array of rows. -/
theorem rows_apply (c : Dev nD) (t : Fin cfg0.N) (x : S8000x128.Idx) (i : S400000x128.Idx)
    (h0 : (i 0).val = t.val * 8000 + (x 0).val) (h1 : (i 1).val = (x 1).val) :
    (Gen.iblk0 V c 0 t : Vec Ideal S8000x128 .f32) x = (V c main_v0 : S400000x128.Idx → EReal) i := by
  obtain ⟨e0, e1, -⟩ := idx_facts t
  unfold Gen.iblk0
  rw [View.read_apply]
  refine congrArg (V c main_v0 : S400000x128.Idx → EReal) (funext fun a => Fin.ext ?_)
  match a with
  | ⟨0, _⟩ => show win0_0.index t (0 : Fin 2) * 8000 + 1 * (x 0).val = (i 0).val; rw [e0, h0]; omega
  | ⟨1, _⟩ => show win0_0.index t (1 : Fin 2) * 128 + 1 * (x 1).val = (i 1).val; rw [e1, h1]; omega

/-- The key matrix is staged whole at every point. -/
theorem wk_apply (c : Dev nD) (t : Fin cfg0.N) (x : S128x16.Idx) :
    (Gen.iblk0 V c 1 t : Vec Ideal S128x16 .f32) x = (V c main_v1 : S128x16.Idx → EReal) x := by
  obtain ⟨-, -, e0, e1, -⟩ := idx_facts t
  unfold Gen.iblk0
  rw [View.read_apply]
  refine congrArg (V c main_v1 : S128x16.Idx → EReal) (funext fun a => Fin.ext ?_)
  match a with
  | ⟨0, _⟩ => show win0_1.index t (0 : Fin 2) * 128 + 1 * (x 0).val = (x 0).val; rw [e0]; omega
  | ⟨1, _⟩ => show win0_1.index t (1 : Fin 2) * 16 + 1 * (x 1).val = (x 1).val; rw [e1]; omega

/-- The query matrix is staged whole at every point. -/
theorem wq_apply (c : Dev nD) (t : Fin cfg0.N) (x : S128x16.Idx) :
    (Gen.iblk0 V c 2 t : Vec Ideal S128x16 .f32) x = (V c main_v2 : S128x16.Idx → EReal) x := by
  obtain ⟨-, -, -, -, e0, e1, -⟩ := idx_facts t
  unfold Gen.iblk0
  rw [View.read_apply]
  refine congrArg (V c main_v2 : S128x16.Idx → EReal) (funext fun a => Fin.ext ?_)
  match a with
  | ⟨0, _⟩ => show win0_2.index t (0 : Fin 2) * 128 + 1 * (x 0).val = (x 0).val; rw [e0]; omega
  | ⟨1, _⟩ => show win0_2.index t (1 : Fin 2) * 16 + 1 * (x 1).val = (x 1).val; rw [e1]; omega

/-- The value matrix is staged whole at every point. -/
theorem wv_apply (c : Dev nD) (t : Fin cfg0.N) (x : S128x128.Idx) :
    (Gen.iblk0 V c 3 t : Vec Ideal S128x128 .f32) x = (V c main_v3 : S128x128.Idx → EReal) x := by
  obtain ⟨-, -, -, -, -, -, e0, e1, -⟩ := idx_facts t
  unfold Gen.iblk0
  rw [View.read_apply]
  refine congrArg (V c main_v3 : S128x128.Idx → EReal) (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-! ## What point t writes back -/

/-- Point t writes back, to the value array, the block at t of the product of the rows with the value matrix. -/
theorem flushed_vals (c : Dev nD) (t : Fin cfg0.N) :
    (Gen.dat0 (F := Ideal) V c).flushed 4 t
      = ((cfg0.win 4).blk t).view.read (Elt Ideal) (Cert.Spec.vals (V c main_v0) (V c main_v3)) := by
  show (cfg0.win 4).cut (grid0.coords t) ((Gen.dat0 (F := Ideal) V c).after 4 t) = _
  rw [Gen.after0_4]
  unfold Gen.out0_4
  rw [View.canon_unit_zero hz]
  simp only [View.ld_unit_zero (S := S8000x128) hz, View.ld_unit_zero (S := S128x128) hz]
  obtain ⟨-, -, -, -, -, -, -, -, e0, e1, -⟩ := idx_facts t
  funext j
  obtain ⟨r, o, rfl⟩ : ∃ (r : Fin 8000) (o : Fin 128), j = ix2 r o := ⟨j 0, j 1, eq_ix2 j⟩
  show Gen.k0_pay2 (F := Ideal) (Gen.iblk0 V c 0 t) (Gen.iblk0 V c 3 t) (ix2 r o)
    = Cert.Spec.vals (V c main_v0) (V c main_v3) (((cfg0.win 4).blk t).view.emb (ix2 r o))
  refine (pay2_apply (Gen.iblk0 V c 0 t) (Gen.iblk0 V c 3 t) r o).trans ?_
  unfold Cert.Spec.vals
  refine Finset.sum_congr rfl fun k _ => ?_
  refine congr (congrArg HMul.hMul (rows_apply V c t (ix2 r k) _ ?_ rfl)) ((wv_apply V c t (ix2 k o)).trans (congrArg (V c main_v3 : S128x128.Idx → EReal) ?_))
  · show win0_4.index t (0 : Fin 2) * 8000 + 1 * r.val = t.val * 8000 + r.val
    rw [e0]; omega
  · refine funext fun a => Fin.ext ?_
    match a with
    | ⟨0, _⟩ => rfl
    | ⟨1, _⟩ => show o.val = win0_4.index t (1 : Fin 2) * 128 + 1 * o.val; rw [e1]; omega

/-- Point t writes back, to the weight column, the block at t of the column of starting weights. -/
theorem flushed_w0 (c : Dev nD) (t : Fin cfg0.N) :
    (Gen.dat0 (F := Ideal) V c).flushed 5 t
      = ((cfg0.win 5).blk t).view.read (Elt Ideal) (Cert.Spec.w0col (V c main_v0) (V c main_v1) (V c main_v2)) := by
  show (cfg0.win 5).cut (grid0.coords t) ((Gen.dat0 (F := Ideal) V c).after 5 t) = _
  rw [Gen.after0_5]
  unfold Gen.out0_5
  rw [View.canon_unit_zero hz]
  simp only [View.ld_unit_zero (S := S8000x128) hz, View.ld_unit_zero (S := S128x16) hz]
  obtain ⟨-, -, -, -, -, -, -, -, -, -, e0, e1⟩ := idx_facts t
  funext j
  obtain ⟨r, u, rfl⟩ : ∃ (r : Fin 8000) (u : Fin 1), j = ix2 r u := ⟨j 0, j 1, eq_ix2 j⟩
  show Gen.k0_pay3 (F := Ideal) (Gen.iblk0 V c 0 t) (Gen.iblk0 V c 1 t) (Gen.iblk0 V c 2 t) (ix2 r u)
    = Cert.Spec.w0col (V c main_v0) (V c main_v1) (V c main_v2) (((cfg0.win 5).blk t).view.emb (ix2 r u))
  refine (pay3_apply (Gen.iblk0 V c 0 t) (Gen.iblk0 V c 1 t) (Gen.iblk0 V c 2 t) r u).trans ?_
  unfold Cert.Spec.w0col
  refine congr (congr (congrArg Cert.Spec.rowWeight (funext fun k => ?_)) (funext fun k => funext fun q => ?_)) (funext fun k => funext fun q => ?_)
  · refine rows_apply V c t (ix2 r k) _ ?_ rfl
    show win0_5.index t (0 : Fin 2) * 8000 + 1 * r.val = t.val * 8000 + r.val
    rw [e0]; omega
  · exact wk_apply V c t (ix2 k q)
  · exact wq_apply V c t (ix2 k q)

/-! ## The blocks cover the rows -/

/-- An index of the value array is in point t's block iff each coordinate is in the block's range on its axis. -/
theorem mem_blk_vals (t : Fin cfg0.N) (i : S400000x128.Idx) :
    i ∈ ((cfg0.win 4).blk t).view.set ↔ ∀ a : Fin 2, win0_4.index t a * S8000x128.size a ≤ (i a).val ∧ (i a).val < win0_4.index t a * S8000x128.size a + S8000x128.size a := by
  show i ∈ ((View.whole main_v4_0).slice (win0_4.rect t)).set ↔ _
  rw [View.set_slice_whole, Rect.mem_set_unit]
  exact Iff.rfl

/-- An index of the weight column is in point t's block iff each coordinate is in the block's range on its axis. -/
theorem mem_blk_w0 (t : Fin cfg0.N) (i : S400000x1.Idx) :
    i ∈ ((cfg0.win 5).blk t).view.set ↔ ∀ a : Fin 2, win0_5.index t a * S8000x1.size a ≤ (i a).val ∧ (i a).val < win0_5.index t a * S8000x1.size a + S8000x1.size a := by
  show i ∈ ((View.whole main_v4_1).slice (win0_5.rect t)).set ↔ _
  rw [View.set_slice_whole, Rect.mem_set_unit]
  exact Iff.rfl

/-- Row r of the value array lies in the block of point r / 8000. -/
theorem cover_vals (i : S400000x128.Idx) :
    ∃ t : Fin cfg0.N, (cfg0.win 4).flush t = true ∧ i ∈ ((cfg0.win 4).blk t).view.set := by
  have hi0 : (i 0).val < 400000 := (i 0).isLt
  have hi1 : (i 1).val < 128 := (i 1).isLt
  obtain ⟨t, ht⟩ : ∃ t : Fin cfg0.N, t.val = (i 0).val / 8000 :=
    ⟨⟨(i 0).val / 8000, by rw [show cfg0.N = 50 from Gen.N_0]; omega⟩, rfl⟩
  obtain ⟨-, -, -, -, -, -, -, -, e0, e1, -⟩ := idx_facts t
  refine ⟨t, Gen.flush0_4 t, ?_⟩
  rw [mem_blk_vals]
  intro a
  match a with
  | ⟨0, _⟩ => show win0_4.index t (0 : Fin 2) * 8000 ≤ (i 0).val ∧ (i 0).val < win0_4.index t (0 : Fin 2) * 8000 + 8000; rw [e0, ht]; omega
  | ⟨1, _⟩ => show win0_4.index t (1 : Fin 2) * 128 ≤ (i 1).val ∧ (i 1).val < win0_4.index t (1 : Fin 2) * 128 + 128; rw [e1]; omega

/-- Row r of the weight column lies in the block of point r / 8000. -/
theorem cover_w0 (i : S400000x1.Idx) :
    ∃ t : Fin cfg0.N, (cfg0.win 5).flush t = true ∧ i ∈ ((cfg0.win 5).blk t).view.set := by
  have hi0 : (i 0).val < 400000 := (i 0).isLt
  have hi1 : (i 1).val < 1 := (i 1).isLt
  obtain ⟨t, ht⟩ : ∃ t : Fin cfg0.N, t.val = (i 0).val / 8000 :=
    ⟨⟨(i 0).val / 8000, by rw [show cfg0.N = 50 from Gen.N_0]; omega⟩, rfl⟩
  obtain ⟨-, -, -, -, -, -, -, -, -, -, e0, e1⟩ := idx_facts t
  refine ⟨t, Gen.flush0_5 t, ?_⟩
  rw [mem_blk_w0]
  intro a
  match a with
  | ⟨0, _⟩ => show win0_5.index t (0 : Fin 2) * 8000 ≤ (i 0).val ∧ (i 0).val < win0_5.index t (0 : Fin 2) * 8000 + 8000; rw [e0, ht]; omega
  | ⟨1, _⟩ => show win0_5.index t (1 : Fin 2) * 1 ≤ (i 1).val ∧ (i 1).val < win0_5.index t (1 : Fin 2) * 1 + 1; rw [e1]; omega

/-! ## The two arrays after the region -/

/-- After the region the value array is the product of the array of rows with the value matrix. -/
theorem final_vals (c : Dev nD) :
    (Gen.dat0 (F := Ideal) V c).arrAt 4 cfg0.N = Cert.Spec.vals (V c main_v0) (V c main_v3) :=
  (Gen.dat0 (F := Ideal) V c).arrAt_eq_of_cover 4 (Cert.Spec.vals (V c main_v0) (V c main_v3))
    (fun t _ => flushed_vals V c t) cover_vals

/-- After the region the weight column holds every row's starting weight. -/
theorem final_w0 (c : Dev nD) :
    (Gen.dat0 (F := Ideal) V c).arrAt 5 cfg0.N = Cert.Spec.w0col (V c main_v0) (V c main_v1) (V c main_v2) :=
  (Gen.dat0 (F := Ideal) V c).arrAt_eq_of_cover 5 (Cert.Spec.w0col (V c main_v0) (V c main_v1) (V c main_v2))
    (fun t _ => flushed_w0 V c t) cover_w0

end Cert.KernelIdeal.Proj

end
-- ==== Proof.NormPay.lean ====
/-
  The final kernel's block computation, read at an index.

  A block is 8000 rows of 128 entries (x0), a column of 8000 weights (x1), a gain row and an offset row (x2, x3).
  The computation scales every row by its weight, takes the row's mean (the sum divided by the number 128), the
  deviations from the mean, the mean of the squared deviations, adds the small constant, takes the reciprocal square
  root, and returns deviation times that scale times gain plus offset.  Read at row r and entry o this is the layer
  normalisation of the scaled row r at o.
-/
import proofs.«166303_j76166950027414_1_alg».proof.Proof.Gen.KernelIdeal.Skeleton
import proofs.«166303_j76166950027414_1_alg».proof.Proof.Spec
import proofs.«166303_j76166950027414_1_alg».proof.Proof.LibRowReduce
import proofs.«166303_j76166950027414_1_alg».proof.Proof.LibColumn
import Idealize.ShloMosaic.Lib.ValueLayout
import Idealize.ShloMosaic.Lib.Pipeline.Value

noncomputable section

namespace Cert.KernelIdeal.Norm

open Cert.KernelIdeal Idealize.ShloMosaic Idealize.ShloMosaic.ValueIdx

/-- Every row of the block scaled by its weight. -/
def rowProd (x0 : Vec Ideal S8000x128 .f32) (x1 : Vec Ideal S8000x1 .f32) : FVec Ideal S8000x128 .f32 :=
  mulf (shapeCast S8000x128 x0 Gen.shapeCasts_S8000x128_S8000x128)
    (broadcastTo S8000x128 (shapeCast S8000x1 x1 Gen.shapeCasts_S8000x1_S8000x1) Gen.broadcasts_S8000x1_S8000x128)

/-- The column of row means of a block: each row's sum divided by the number 128. -/
def colMean (src : FVec Ideal S8000x128 .f32) : FVec Ideal S8000x1 .f32 :=
  divf (shapeCast S8000x1
      (multiReduction (F := Ideal) .add [1] S8000 src 0x00000000#32 Gen.reduces_S8000x128_S8000 (.inl rfl) rfl)
      Gen.shapeCasts_S8000_S8000x1)
    (broadcast S8000x1 (Scalar.ofBits (F := Ideal) .f32 0x43000000#32))

/-- The deviations of the scaled rows from their means. -/
def dev (x0 : Vec Ideal S8000x128 .f32) (x1 : Vec Ideal S8000x1 .f32) : FVec Ideal S8000x128 .f32 :=
  subf (rowProd x0 x1) (broadcastTo S8000x128 (colMean (rowProd x0 x1)) Gen.broadcasts_S8000x1_S8000x128)

/-- The column of scales: the reciprocal square root of the mean squared deviation plus the small constant. -/
def scale (x0 : Vec Ideal S8000x128 .f32) (x1 : Vec Ideal S8000x1 .f32) : FVec Ideal S8000x1 .f32 :=
  rsqrt (addf (colMean (mulf (dev x0 x1) (dev x0 x1)))
    (broadcast S8000x1 (Scalar.ofBits (F := Ideal) .f32 0x3727C5AC#32)))

/-- The block computation in those words. -/
theorem pay_eq (x0 : Vec Ideal S8000x128 .f32) (x1 : Vec Ideal S8000x1 .f32) (x2 x3 : Vec Ideal S1x128 .f32) :
    Gen.k1_pay1 (F := Ideal) x0 x1 x2 x3
      = addf (mulf (mulf (dev x0 x1) (broadcastTo S8000x128 (scale x0 x1) Gen.broadcasts_S8000x1_S8000x128))
            (broadcastTo S8000x128 (shapeCast S1x128 x2 Gen.shapeCasts_S1x128_S1x128) Gen.broadcasts_S1x128_S8000x128))
          (broadcastTo S8000x128 (shapeCast S1x128 x3 Gen.shapeCasts_S1x128_S1x128) Gen.broadcasts_S1x128_S8000x128) := rfl

/-- The scaled block at (r, k): the entry times the row's weight. -/
theorem rowProd_apply (x0 : Vec Ideal S8000x128 .f32) (x1 : Vec Ideal S8000x1 .f32) (r : Fin 8000) (k : Fin 128) :
    rowProd x0 x1 (ix2 r k) = x0 (ix2 r k) * x1 (ix2 r (0 : Fin 1)) := by
  unfold rowProd
  rw [mulf_apply, shapeCast_self, shapeCast_self, Cert.LibColumn.broadcastTo_a1_ab_apply]

/-- The column of means at row r: the mean of row r. -/
theorem colMean_apply (src : FVec Ideal S8000x128 .f32) (r : Fin 8000) (u : Fin 1) :
    colMean src (ix2 r u) = Cert.Spec.rowMean (fun k => src (ix2 r k)) := by
  unfold colMean Cert.Spec.rowMean
  rw [divf_apply, Cert.LibColumn.shapeCast_a_a1_apply]
  exact congrArg (fun s => Ideal.div s (Ideal.ofBits .f32 0x43000000#32))
    (Cert.LibRowReduce.rowSum_apply src 0x00000000#32 Gen.reduces_S8000x128_S8000 (.inl rfl) rfl r)

/-- The deviations at (r, k). -/
theorem dev_apply (x0 : Vec Ideal S8000x128 .f32) (x1 : Vec Ideal S8000x1 .f32) (r : Fin 8000) (k : Fin 128) :
    dev x0 x1 (ix2 r k)
      = x0 (ix2 r k) * x1 (ix2 r (0 : Fin 1))
        - Cert.Spec.rowMean (fun k => x0 (ix2 r k) * x1 (ix2 r (0 : Fin 1))) := by
  unfold dev
  rw [subf_apply, Cert.LibColumn.broadcastTo_a1_ab_apply, colMean_apply, rowProd_apply]
  exact congrArg (fun f => x0 (ix2 r k) * x1 (ix2 r (0 : Fin 1)) - Cert.Spec.rowMean f)
    (funext fun k => rowProd_apply x0 x1 r k)

/-- A reciprocal square root of a block, read at an index, is the reciprocal square root of the entry. -/
theorem rsqrt_apply {s : Shape} {φ : FTy} (v : FVec Ideal s φ) (i : s.Idx) : rsqrt v i = Ideal.rsqrt (v i) := rfl

/-- The scale of row r. -/
theorem scale_apply (x0 : Vec Ideal S8000x128 .f32) (x1 : Vec Ideal S8000x1 .f32) (r : Fin 8000) (u : Fin 1) :
    scale x0 x1 (ix2 r u)
      = Ideal.rsqrt (Cert.Spec.rowMean (fun k => dev x0 x1 (ix2 r k) * dev x0 x1 (ix2 r k))
          + Ideal.ofBits .f32 0x3727C5AC#32) := by
  unfold scale
  rw [rsqrt_apply, addf_apply, colMean_apply]
  rfl

/-- THE BLOCK COMPUTATION AT (r, o): the layer normalisation of the scaled row r, at entry o. -/
theorem pay_apply (x0 : Vec Ideal S8000x128 .f32) (x1 : Vec Ideal S8000x1 .f32) (x2 x3 : Vec Ideal S1x128 .f32)
    (r : Fin 8000) (o : Fin 128) :
    Gen.k1_pay1 (F := Ideal) x0 x1 x2 x3 (ix2 r o)
      = Cert.Spec.lnRow (fun k => x0 (ix2 r k) * x1 (ix2 r (0 : Fin 1))) (fun k => x2 (ix2 (0 : Fin 1) k))
          (fun k => x3 (ix2 (0 : Fin 1) k)) o := by
  rw [pay_eq, addf_apply, mulf_apply, mulf_apply, Cert.LibColumn.broadcastTo_a1_ab_apply,
    broadcastTo_1b_ab_apply, broadcastTo_1b_ab_apply, shapeCast_self, shapeCast_self, scale_apply, dev_apply]
  unfold Cert.Spec.lnRow
  simp only [dev_apply]

end Cert.KernelIdeal.Norm

end
-- ==== Proof.Norm.lean ====
/-
  The array the final region leaves: every row of the value array scaled by its weight and layer-normalised.

  The region walks 50 grid points; point t stages rows 8000 t … 8000 t + 7999 of the value array and of the weight
  column, the whole gain row and the whole offset row, and writes back rows 8000 t … 8000 t + 7999 of the result.
  A block's coordinate in its array is always block index × block size + the coordinate inside the block; the index
  maps are decided once over the grid.  What point t writes back is therefore block t of one function of the whole
  arrays (each row normalised on its own), and the 50 blocks cover the 400000 rows: row p lies in block p / 8000.
-/
import proofs.«166303_j76166950027414_1_alg».proof.Proof.Gen.KernelIdeal.Frame
import proofs.«166303_j76166950027414_1_alg».proof.Proof.NormPay
import Idealize.ShloMosaic.Lib.Pipeline.Value

noncomputable section

namespace Cert.KernelIdeal.Norm

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the 50 grid points: the value window, the weight window and the result window
    sit at block row t and block column 0; the gain and offset windows at block (0, 0). -/
theorem index_facts : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The value window's block at point t: entry (r, k) is the value array's entry (8000 t + r, k). -/
theorem blk0_apply (c : Dev nD) (t : Fin cfg1.N) (r : Fin 8000) (k : Fin 128) (p : Fin 400000)
    (hp : p.val = t.val * 8000 + r.val) :
    (Gen.iblk1 V c 0 t : Vec Ideal S8000x128 .f32) (ix2 r k) = (V c main_v4_0 : S400000x128.Idx → EReal) (ix2 p k) := by
  obtain ⟨-, -, e0, e1, -⟩ := index_facts t
  unfold Gen.iblk1
  rw [View.read_apply]
  show (V c main_v4_0 : S400000x128.Idx → EReal) _ = (V c main_v4_0 : S400000x128.Idx → EReal) _
  congr 1
  funext a
  apply Fin.ext
  match a with
  | ⟨0, _⟩ => show win1_0.index t (0 : Fin 2) * 8000 + 1 * r.val = p.val; rw [e0, hp]; omega
  | ⟨1, _⟩ => show win1_0.index t (1 : Fin 2) * 128 + 1 * k.val = k.val; rw [e1]; omega

/-- The weight window's block at point t: entry (r, 0) is the weight column's entry (8000 t + r, 0). -/
theorem blk1_apply (c : Dev nD) (t : Fin cfg1.N) (r : Fin 8000) (p : Fin 400000)
    (hp : p.val = t.val * 8000 + r.val) :
    (Gen.iblk1 V c 1 t : Vec Ideal S8000x1 .f32) (ix2 r (0 : Fin 1))
      = (V c main_v45 : S400000x1.Idx → EReal) (ix2 p (0 : Fin 1)) := by
  obtain ⟨-, -, -, -, e0, e1, -⟩ := index_facts t
  unfold Gen.iblk1
  rw [View.read_apply]
  show (V c main_v45 : S400000x1.Idx → EReal) _ = (V c main_v45 : S400000x1.Idx → EReal) _
  congr 1
  funext a
  apply Fin.ext
  match a with
  | ⟨0, _⟩ => show win1_1.index t (0 : Fin 2) * 8000 + 1 * r.val = p.val; rw [e0, hp]; omega
  | ⟨1, _⟩ => show win1_1.index t (1 : Fin 2) * 1 + 1 * (0 : Fin 1).val = (0 : Fin 1).val; rw [e1]; omega

/-- The gain window's block at any point is the whole gain row. -/
theorem blk2_apply (c : Dev nD) (t : Fin cfg1.N) (k : Fin 128) :
    (Gen.iblk1 V c 2 t : Vec Ideal S1x128 .f32) (ix2 (0 : Fin 1) k)
      = (V c main_v46 : S1x128.Idx → EReal) (ix2 (0 : Fin 1) k) := by
  obtain ⟨-, -, -, -, -, -, e0, e1, -⟩ := index_facts t
  unfold Gen.iblk1
  rw [View.read_apply]
  show (V c main_v46 : S1x128.Idx → EReal) _ = (V c main_v46 : S1x128.Idx → EReal) _
  congr 1
  funext a
  apply Fin.ext
  match a with
  | ⟨0, _⟩ => show win1_2.index t (0 : Fin 2) * 1 + 1 * (0 : Fin 1).val = (0 : Fin 1).val; rw [e0]; omega
  | ⟨1, _⟩ => show win1_2.index t (1 : Fin 2) * 128 + 1 * k.val = k.val; rw [e1]; omega

/-- The offset window's block at any point is the whole offset row. -/
theorem blk3_apply (c : Dev nD) (t : Fin cfg1.N) (k : Fin 128) :
    (Gen.iblk1 V c 3 t : Vec Ideal S1x128 .f32) (ix2 (0 : Fin 1) k)
      = (V c main_v47 : S1x128.Idx → EReal) (ix2 (0 : Fin 1) k) := by
  obtain ⟨-, -, -, -, -, -, -, -, e0, e1⟩ := index_facts t
  unfold Gen.iblk1
  rw [View.read_apply]
  show (V c main_v47 : S1x128.Idx → EReal) _ = (V c main_v47 : S1x128.Idx → EReal) _
  congr 1
  funext a
  apply Fin.ext
  match a with
  | ⟨0, _⟩ => show win1_3.index t (0 : Fin 2) * 1 + 1 * (0 : Fin 1).val = (0 : Fin 1).val; rw [e0]; omega
  | ⟨1, _⟩ => show win1_3.index t (1 : Fin 2) * 128 + 1 * k.val = k.val; rw [e1]; omega

/-- The block computation on point t's blocks, at (r, o), is the normalised array at (8000 t + r, o). -/
theorem block_eq (c : Dev nD) (t : Fin cfg1.N) (r : Fin 8000) (o : Fin 128) (p : Fin 400000)
    (hp : p.val = t.val * 8000 + r.val) :
    Gen.k1_pay1 (F := Ideal) (Gen.iblk1 V c 0 t) (Gen.iblk1 V c 1 t) (Gen.iblk1 V c 2 t) (Gen.iblk1 V c 3 t) (ix2 r o)
      = Cert.Spec.normed (V c main_v4_0) (V c main_v45) (V c main_v46) (V c main_v47) (ix2 p o) := by
  refine (pay_apply (Gen.iblk1 V c 0 t) (Gen.iblk1 V c 1 t) (Gen.iblk1 V c 2 t) (Gen.iblk1 V c 3 t) r o).trans ?_
  unfold Cert.Spec.normed
  have h0 : ∀ k : Fin 128, (Gen.iblk1 V c 0 t : Vec Ideal S8000x128 .f32) (ix2 r k)
      = (V c main_v4_0 : S400000x128.Idx → EReal) (ix2 p k) := fun k => blk0_apply V c t r k p hp
  have h1 : (Gen.iblk1 V c 1 t : Vec Ideal S8000x1 .f32) (ix2 r (0 : Fin 1))
      = (V c main_v45 : S400000x1.Idx → EReal) (ix2 p (0 : Fin 1)) := blk1_apply V c t r p hp
  have h2 : ∀ k : Fin 128, (Gen.iblk1 V c 2 t : Vec Ideal S1x128 .f32) (ix2 (0 : Fin 1) k)
      = (V c main_v46 : S1x128.Idx → EReal) (ix2 (0 : Fin 1) k) := fun k => blk2_apply V c t k
  have h3 : ∀ k : Fin 128, (Gen.iblk1 V c 3 t : Vec Ideal S1x128 .f32) (ix2 (0 : Fin 1) k)
      = (V c main_v47 : S1x128.Idx → EReal) (ix2 (0 : Fin 1) k) := fun k => blk3_apply V c t k
  simp only [h0, h1, h2, h3]

/-- The block computation on point t's blocks, at a block index j, is the normalised array where the result window's
    block at t puts j. -/
theorem block_at (c : Dev nD) (t : Fin cfg1.N) (j : S8000x128.Idx) :
    Gen.k1_pay1 (F := Ideal) (Gen.iblk1 V c 0 t) (Gen.iblk1 V c 1 t) (Gen.iblk1 V c 2 t) (Gen.iblk1 V c 3 t) j
      = Cert.Spec.normed (V c main_v4_0) (V c main_v45) (V c main_v46) (V c main_v47)
          (((cfg1.win 4).blk t).view.emb j) := by
  obtain ⟨e0, e1, -⟩ := index_facts t
  have hN : cfg1.N = 50 := Gen.N_1
  have ht : t.val < 50 := hN ▸ t.isLt
  obtain ⟨r, o, rfl⟩ : ∃ (r : Fin 8000) (o : Fin 128), j = ix2 r o := ⟨j 0, j 1, eq_ix2 j⟩
  have hr : r.val < 8000 := r.isLt
  refine (block_eq V c t r o ⟨t.val * 8000 + r.val, by omega⟩ rfl).trans (congrArg _ ?_)
  funext a
  apply Fin.ext
  match a with
  | ⟨0, _⟩ => show t.val * 8000 + r.val = win1_4.index t (0 : Fin 2) * 8000 + 1 * r.val; rw [e0]; omega
  | ⟨1, _⟩ => show o.val = win1_4.index t (1 : Fin 2) * 128 + 1 * o.val; rw [e1]; omega

/-- WHAT POINT t WRITES BACK is block t of the normalised array. -/
theorem flushed_eq (c : Dev nD) (t : Fin cfg1.N) :
    (Gen.dat1 (F := Ideal) V c).flushed 4 t = ((cfg1.win 4).blk t).view.read (Elt Ideal)
      (Cert.Spec.normed (V c main_v4_0) (V c main_v45) (V c main_v46) (V c main_v47)) := by
  show (cfg1.win 4).cut (grid1.coords t) ((Gen.dat1 (F := Ideal) V c).after 4 t) = _
  rw [Gen.after1_4]
  unfold Gen.out1_4
  rw [View.canon_unit_zero zeros2]
  simp only [View.ld_unit_zero (S := S8000x128) zeros2, View.ld_unit_zero (S := S8000x1) zeros2,
    View.ld_unit_zero (S := S1x128) zeros2]
  funext j
  exact block_at V c t j

/-- An index of the result array is in point t's block iff each coordinate is in the block's range on its axis. -/
theorem mem_blk (t : Fin cfg1.N) (i : S400000x128.Idx) :
    i ∈ ((cfg1.win 4).blk t).view.set ↔ ∀ a : Fin 2, win1_4.index t a * S8000x128.size a ≤ (i a).val
      ∧ (i a).val < win1_4.index t a * S8000x128.size a + S8000x128.size a := by
  show i ∈ ((View.whole main_v48).slice (win1_4.rect t)).set ↔ _
  rw [View.set_slice_whole, Rect.mem_set_unit]
  exact Iff.rfl

/-- Row p of the result lies in the block of point p / 8000. -/
theorem cover (i : S400000x128.Idx) :
    ∃ t : Fin cfg1.N, (cfg1.win 4).flush t = true ∧ i ∈ ((cfg1.win 4).blk t).view.set := by
  have hN : cfg1.N = 50 := Gen.N_1
  have hi0 : (i 0).val < 400000 := (i 0).isLt
  have hi1 : (i 1).val < 128 := (i 1).isLt
  obtain ⟨t, ht⟩ : ∃ t : Fin cfg1.N, t.val = (i 0).val / 8000 := ⟨⟨(i 0).val / 8000, by rw [hN]; omega⟩, rfl⟩
  refine ⟨t, Gen.flush1_4 t, ?_⟩
  rw [mem_blk]
  obtain ⟨e0, e1, -⟩ := index_facts t
  intro a
  match a with
  | ⟨0, _⟩ =>
    show win1_4.index t (0 : Fin 2) * 8000 ≤ (i 0).val ∧ (i 0).val < win1_4.index t (0 : Fin 2) * 8000 + 8000
    rw [e0, ht]; omega
  | ⟨1, _⟩ =>
    show win1_4.index t (1 : Fin 2) * 128 ≤ (i 1).val ∧ (i 1).val < win1_4.index t (1 : Fin 2) * 128 + 128
    rw [e1]; omega

/-- THE RESULT ARRAY after the region: every row of the value array scaled by its weight and layer-normalised with the
    gain and offset rows. -/
theorem final_out (c : Dev nD) :
    (Gen.dat1 (F := Ideal) V c).arrAt 4 cfg1.N
      = Cert.Spec.normed (V c main_v4_0) (V c main_v45) (V c main_v46) (V c main_v47) :=
  (Gen.dat1 (F := Ideal) V c).arrAt_eq_of_cover 4 _ (fun t _ => flushed_eq V c t) cover

end Cert.KernelIdeal.Norm

end
-- ==== Proof.RefRead.lean ====
/-
  The idealized reference program, read at an index.

  With X the [4, 100000, 128] input, for the node (b, n):
  * its starting weight is the mean over the 16 channels of key times query, key and query the sums of products of the
    node's row against the rows of the two projection matrices;
  * its final weight is the starting weight plus the entries (n, b) of the two propagation rounds;
  * its output row is the layer normalisation of (the value projection of its row) times its final weight.
  The reductions start from the word of zero, which is the number zero, so each is the plain sum.
-/
import proofs.«166303_j76166950027414_1_alg».proof.Proof.Gen.ReferenceIdeal.Read
import proofs.«166303_j76166950027414_1_alg».proof.Proof.Spec
import Idealize.ShloMosaic.PureOps.Ideal.Laws

noncomputable section

namespace Cert.ReferenceIdeal.RefValue

open Cert.ReferenceIdeal Cert.ReferenceIdeal.Read Idealize.ShloMosaic Idealize.ShloMosaic.ValueIdx

/-- Two index functions into a rank-3 shape agree when their three coordinates do, each by computation. -/
local macro "idx3" : tactic =>
  `(tactic| (funext a; refine Fin.ext ?_; match a with | ⟨0, _⟩ => rfl | ⟨1, _⟩ => rfl | ⟨2, _⟩ => rfl))
local macro "idx2" : tactic =>
  `(tactic| (funext a; refine Fin.ext ?_; match a with | ⟨0, _⟩ => rfl | ⟨1, _⟩ => rfl))
local macro "idx1" : tactic =>
  `(tactic| (funext a; refine Fin.ext ?_; match a with | ⟨0, _⟩ => rfl))

variable (x0 : (⟨S4x100000x128, .f32⟩ : BufTy).Contents (Elt Ideal)) (x1 x2 : (⟨S16x128, .f32⟩ : BufTy).Contents (Elt Ideal))
  (x3 : (⟨S128x128, .f32⟩ : BufTy).Contents (Elt Ideal)) (x4 x5 : (⟨S128, .f32⟩ : BufTy).Contents (Elt Ideal))
  (x6 : (⟨S3200000, .f32⟩ : BufTy).Contents (Elt Ideal)) (x7 : (⟨S2x3200000, .i32⟩ : BufTy).Contents (Elt Ideal))

/-! ## The starting weights -/

/-- The starting weight of node (b, n). -/
theorem w0_apply (b : Fin 4) (n : Fin 100000) :
    val_main_v7 (F := Ideal) x0 x1 x2 (ix3 b n (0 : Fin 1))
      = Cert.Spec.rowWeight (fun k => x0 (ix3 b n k)) (fun k q => x1 (ix2 q k)) (fun k q => x2 (ix2 q k)) := by
  rw [val_main_v7_apply, val_main_v5_apply, val_main_v4_apply, val_main_v6_apply, val_main_cst_0_apply, val_main_cst_apply]
  have e4 : ∀ q : Fin 16, idx_main_v4 (idx_main_v5 (ix3 b n (0 : Fin 1))) q = ix3 b n q := fun q => by idx3
  have el : ∀ (q : Fin 16) (k : Fin 128), lidx_main_v0 (ix3 b n q) k = ix3 b n k := fun q k => by idx3
  have er : ∀ (q : Fin 16) (k : Fin 128), ridx_main_v0 (ix3 b n q) k = ix2 q k := fun q k => by idx2
  have el' : ∀ (q : Fin 16) (k : Fin 128), lidx_main_v1 (ix3 b n q) k = ix3 b n k := fun q k => by idx3
  have er' : ∀ (q : Fin 16) (k : Fin 128), ridx_main_v1 (ix3 b n q) k = ix2 q k := fun q k => by idx2
  simp only [e4, val_main_v3_apply, val_main_v0_apply, val_main_v1_apply, el, er, el', er']
  show Ideal.div (Ideal.ofBits .f32 0x00000000#32 + _) _ = _
  rw [Ideal.ofBits_zero_f32, zero_add]
  rfl

/-- The [4, 100000] starting weights read the [4, 100000, 1] ones. -/
theorem v8_apply (b : Fin 4) (n : Fin 100000) :
    val_main_v8 (F := Ideal) x0 x1 x2 (ix2 b n) = val_main_v7 (F := Ideal) x0 x1 x2 (ix3 b n (0 : Fin 1)) := by
  rw [val_main_v8_apply]
  refine congrArg _ (funext fun a => Fin.ext ?_)
  have hb := b.isLt
  have hn := n.isLt
  match a with
  | ⟨0, _⟩ => show (b.val * 100000 + n.val) / 100000 = b.val; omega
  | ⟨1, _⟩ => show (b.val * 100000 + n.val) / 1 % 100000 = n.val; omega
  | ⟨2, _⟩ => rfl

/-! ## The final weights -/

/-- The final weight of node (b, n): the starting weight plus entry (n, b) of each propagation round. -/
theorem wfin_apply (b : Fin 4) (n : Fin 100000) :
    val_main_v53 (F := Ideal) x0 x1 x2 x6 x7 (ix3 b n (0 : Fin 1))
      = val_main_v7 (F := Ideal) x0 x1 x2 (ix3 b n (0 : Fin 1)) + val_main_v28 (F := Ideal) x0 x1 x2 x6 x7 (ix2 n b)
        + val_main_v50 (F := Ideal) x0 x1 x2 x6 x7 (ix2 n b) := by
  rw [val_main_v53_apply, val_main_v31_apply, val_main_v30_apply, val_main_v29_apply, val_main_v52_apply, val_main_v51_apply]
  have e1 : idx_main_v29 (idx_main_v30 (ix3 b n (0 : Fin 1))) = ix2 n b := by idx2
  have e2 : idx_main_v51 (idx_main_v52 (ix3 b n (0 : Fin 1))) = ix2 n b := by idx2
  rw [e1, e2]
  rfl

/-! ## The normalisation -/

/-- Entry k of node (b, n)'s weighted value row. -/
theorem vw_apply (b : Fin 4) (n : Fin 100000) (k : Fin 128) :
    val_main_v55 (F := Ideal) x0 x1 x2 x3 x6 x7 (ix3 b n k)
      = (∑ j : Fin 128, x0 (ix3 b n j) * x3 (ix2 k j)) * val_main_v53 (F := Ideal) x0 x1 x2 x6 x7 (ix3 b n (0 : Fin 1)) := by
  rw [val_main_v55_apply, val_main_v2_apply, val_main_v54_apply]
  have el : ∀ j : Fin 128, lidx_main_v2 (ix3 b n k) j = ix3 b n j := fun j => by idx3
  have er : ∀ j : Fin 128, ridx_main_v2 (ix3 b n k) j = ix2 k j := fun j => by idx2
  have e3 : idx_main_v54 (ix3 b n k) = ix3 b n (0 : Fin 1) := by idx3
  simp only [el, er, e3]
  rfl

/-- The mean of node (b, n)'s weighted value row. -/
theorem mean_apply (b : Fin 4) (n : Fin 100000) :
    val_main_v59 (F := Ideal) x0 x1 x2 x3 x6 x7 (ix3 b n (0 : Fin 1))
      = Cert.Spec.rowMean (fun k => val_main_v55 (F := Ideal) x0 x1 x2 x3 x6 x7 (ix3 b n k)) := by
  rw [val_main_v59_apply, val_main_v57_apply, val_main_v56_apply, val_main_v58_apply, val_main_cst_9_apply, val_main_cst_8_apply]
  have e : ∀ k : Fin 128, idx_main_v56 (idx_main_v57 (ix3 b n (0 : Fin 1))) k = ix3 b n k := fun k => by idx3
  simp only [e]
  show Ideal.div (Ideal.ofBits .f32 0x00000000#32 + _) _ = _
  rw [Ideal.ofBits_zero_f32, zero_add]
  rfl

/-- The deviation of entry k from the mean. -/
theorem dev_apply (b : Fin 4) (n : Fin 100000) (k : Fin 128) :
    val_main_v61 (F := Ideal) x0 x1 x2 x3 x6 x7 (ix3 b n k)
      = val_main_v55 (F := Ideal) x0 x1 x2 x3 x6 x7 (ix3 b n k) - val_main_v59 (F := Ideal) x0 x1 x2 x3 x6 x7 (ix3 b n (0 : Fin 1)) := by
  rw [val_main_v61_apply, val_main_v60_apply]
  have e : idx_main_v60 (ix3 b n k) = ix3 b n (0 : Fin 1) := by idx3
  rw [e]
  rfl

/-- The variance of node (b, n)'s weighted value row. -/
theorem var_apply (b : Fin 4) (n : Fin 100000) :
    val_main_v66 (F := Ideal) x0 x1 x2 x3 x6 x7 (ix3 b n (0 : Fin 1))
      = Cert.Spec.rowMean (fun k => val_main_v61 (F := Ideal) x0 x1 x2 x3 x6 x7 (ix3 b n k) * val_main_v61 (F := Ideal) x0 x1 x2 x3 x6 x7 (ix3 b n k)) := by
  rw [val_main_v66_apply, val_main_v64_apply, val_main_v63_apply, val_main_v65_apply, val_main_cst_11_apply, val_main_cst_10_apply]
  have e : ∀ k : Fin 128, idx_main_v63 (idx_main_v64 (ix3 b n (0 : Fin 1))) k = ix3 b n k := fun k => by idx3
  simp only [e, val_main_v62_apply]
  show Ideal.div (Ideal.ofBits .f32 0x00000000#32 + _) _ = _
  rw [Ideal.ofBits_zero_f32, zero_add]
  rfl

/-- THE REFERENCE AT AN INDEX: entry c of node (b, n)'s output row is the layer normalisation of its weighted value row. -/
theorem out_apply (b : Fin 4) (n : Fin 100000) (c : Fin 128) :
    val_main_v79 (F := Ideal) x0 x1 x2 x3 x4 x5 x6 x7 (ix3 b n c)
      = Cert.Spec.lnRow (fun k => (∑ j : Fin 128, x0 (ix3 b n j) * x3 (ix2 k j)) * val_main_v53 (F := Ideal) x0 x1 x2 x6 x7 (ix3 b n (0 : Fin 1)))
          (fun k => x4 (ix1 k)) (fun k => x5 (ix1 k)) c := by
  rw [val_main_v79_apply, val_main_v76_apply, val_main_v73_apply, val_main_v68_apply, val_main_v67_apply, val_main_v72_apply,
    val_main_v71_apply, val_main_v70_apply, val_main_v69_apply, val_main_cst_12_apply, val_main_v75_apply, val_main_v74_apply,
    val_main_v78_apply, val_main_v77_apply]
  have e67 : idx_main_v67 (ix3 b n c) = ix3 b n (0 : Fin 1) := by idx3
  have e72 : idx_main_v72 (ix3 b n c) = ix3 b n (0 : Fin 1) := by idx3
  have e75 : idx_main_v74 (idx_main_v75 (ix3 b n c)) = ix1 c := by idx1
  have e78 : idx_main_v77 (idx_main_v78 (ix3 b n c)) = ix1 c := by idx1
  rw [e67, e72, e75, e78, var_apply, mean_apply]
  simp only [dev_apply, mean_apply, vw_apply]
  rfl

end Cert.ReferenceIdeal.RefValue

end
-- ==== Proof.Bridge.lean ====
/-
  The two programs compute one function.

  The kernel program works on the node axis flattened: node (b, n) is row b · 100000 + n of a [400000, ·] array.  Read
  at that row, its value projection, its starting weight and its normalised output are the reference's at (b, n):
  * flattening [4, 100000, 128] to [400000, 128] sends entry (b, n, k) to entry (b · 100000 + n, k), and the transposed
    projection matrices read entry (k, j) at (j, k), so the sums of products are the same sums;
  * the starting weights, cut back to [4, 100000], are therefore the reference's array, the two propagation rounds are
    the same function of the same array, and the final weight of the row is the reference's at (b, n);
  * layer normalisation is then applied to the same row with the same gain and offset.
-/
import proofs.«166303_j76166950027414_1_alg».proof.Proof.Spec
import proofs.«166303_j76166950027414_1_alg».proof.Proof.Mid
import proofs.«166303_j76166950027414_1_alg».proof.Proof.RefRead
import Idealize.ShloMosaic.Lib.Pipeline.Value

noncomputable section

namespace Cert.Bridge

open Idealize.ShloMosaic Idealize.ShloMosaic.ValueIdx Cert.KernelIdeal Cert.KernelIdeal.Gen
open Cert.ReferenceIdeal.Read (val_main_v7 val_main_v8 val_main_v9 val_main_v28 val_main_v50 val_main_v53 val_main_v79)

/-- The flattened row of node (b, n). -/
def row (b : Fin 4) (n : Fin 100000) : Fin 400000 :=
  ⟨b.val * 100000 + n.val, by have := b.isLt; have := n.isLt; omega⟩

variable (x0 : (⟨S4x100000x128, .f32⟩ : BufTy).Contents (Elt Ideal)) (x1 x2 : (⟨S16x128, .f32⟩ : BufTy).Contents (Elt Ideal))
  (x3 : (⟨S128x128, .f32⟩ : BufTy).Contents (Elt Ideal)) (x4 x5 : (⟨S128, .f32⟩ : BufTy).Contents (Elt Ideal))
  (x6 : (⟨S3200000, .f32⟩ : BufTy).Contents (Elt Ideal)) (x7 : (⟨S2x3200000, .i32⟩ : BufTy).Contents (Elt Ideal))

/-- The input with its node axis flattened. -/
abbrev flat : S400000x128.Idx → EReal := shapeCast S400000x128 x0 shapeCasts_S4x100000x128_S400000x128

/-- The starting weights as the projection region leaves them: a [400000, 1] column. -/
abbrev w0 : S400000x1.Idx → EReal :=
  Cert.Spec.w0col (flat x0) (transpose S128x16 [1, 0] x1 transposes_S16x128_S128x16_1_0) (transpose S128x16 [1, 0] x2 transposes_S16x128_S128x16_1_0)

/-- The kernel program's result as one function of its arguments. -/
def result : S4x100000x128.Idx → EReal :=
  shapeCast S4x100000x128
    (Cert.Spec.normed
      (Cert.Spec.vals (flat x0) (transpose S128x128 [1, 0] x3 transposes_S128x128_S128x128_1_0))
      (Cert.Mid.weights x7 x6 (w0 x0 x1 x2))
      (shapeCast S1x128 x4 shapeCasts_S128_S1x128) (shapeCast S1x128 x5 shapeCasts_S128_S1x128))
    shapeCasts_S400000x128_S4x100000x128

/-! ## Layout -/

theorem flat_apply (b : Fin 4) (n : Fin 100000) (k : Fin 128) : flat x0 (ix2 (row b n) k) = x0 (ix3 b n k) :=
  shapeCast_apply x0 shapeCasts_S4x100000x128_S400000x128 _ _ (by
    rw [Shape.rowMajor_val_three, Shape.rowMajor_val_two]; rfl)

theorem tr16_apply (x : (⟨S16x128, .f32⟩ : BufTy).Contents (Elt Ideal)) (k : Fin 128) (q : Fin 16) :
    transpose S128x16 [1, 0] x transposes_S16x128_S128x16_1_0 (ix2 k q) = x (ix2 q k) :=
  transpose_apply [1, 0] x transposes_S16x128_S128x16_1_0 (ix2 k q) (ix2 q k) (fun a => match a with
    | ⟨0, _⟩ => rfl
    | ⟨1, _⟩ => rfl)

theorem tr128_apply (j k : Fin 128) :
    transpose S128x128 [1, 0] x3 transposes_S128x128_S128x128_1_0 (ix2 j k) = x3 (ix2 k j) :=
  transpose_apply [1, 0] x3 transposes_S128x128_S128x128_1_0 (ix2 j k) (ix2 k j) (fun a => match a with
    | ⟨0, _⟩ => rfl
    | ⟨1, _⟩ => rfl)

theorem row128_apply (x : (⟨S128, .f32⟩ : BufTy).Contents (Elt Ideal)) (k : Fin 128) :
    shapeCast S1x128 x shapeCasts_S128_S1x128 (ix2 (0 : Fin 1) k) = x (ix1 k) :=
  shapeCast_apply x shapeCasts_S128_S1x128 _ _ (by
    rw [Shape.rowMajor_val_one, Shape.rowMajor_val_two]
    show k.val = 0 * 128 + k.val
    omega)

/-! ## The value projection and the starting weights -/

theorem vals_apply (b : Fin 4) (n : Fin 100000) (k : Fin 128) :
    Cert.Spec.vals (flat x0) (transpose S128x128 [1, 0] x3 transposes_S128x128_S128x128_1_0) (ix2 (row b n) k)
      = ∑ j : Fin 128, x0 (ix3 b n j) * x3 (ix2 k j) := by
  show ∑ j : Fin 128, flat x0 (ix2 (row b n) j) * transpose S128x128 [1, 0] x3 transposes_S128x128_S128x128_1_0 (ix2 j k) = _
  exact Finset.sum_congr rfl fun j _ => congr (congrArg HMul.hMul (flat_apply x0 b n j)) (tr128_apply x3 j k)

theorem w0_apply (b : Fin 4) (n : Fin 100000) :
    w0 x0 x1 x2 (ix2 (row b n) (0 : Fin 1)) = val_main_v7 (F := Ideal) x0 x1 x2 (ix3 b n (0 : Fin 1)) := by
  rw [Cert.ReferenceIdeal.RefValue.w0_apply]
  show Cert.Spec.rowWeight (fun k => flat x0 (ix2 (row b n) k))
      (fun k q => transpose S128x16 [1, 0] x1 transposes_S16x128_S128x16_1_0 (ix2 k q))
      (fun k q => transpose S128x16 [1, 0] x2 transposes_S16x128_S128x16_1_0 (ix2 k q)) = _
  have e0 : (fun k => flat x0 (ix2 (row b n) k)) = fun k => x0 (ix3 b n k) := funext fun k => flat_apply x0 b n k
  have e1 : (fun (k : Fin 128) (q : Fin 16) => transpose S128x16 [1, 0] x1 transposes_S16x128_S128x16_1_0 (ix2 k q))
      = fun k q => x1 (ix2 q k) := funext fun k => funext fun q => tr16_apply x1 k q
  have e2 : (fun (k : Fin 128) (q : Fin 16) => transpose S128x16 [1, 0] x2 transposes_S16x128_S128x16_1_0 (ix2 k q))
      = fun k q => x2 (ix2 q k) := funext fun k => funext fun q => tr16_apply x2 k q
  exact congr (congr (congrArg Cert.Spec.rowWeight e0) e1) e2

/-- The starting weights, cut back to [4, 100000], are the reference's. -/
theorem w0_cut : shapeCast S4x100000 (w0 x0 x1 x2) shapeCasts_S400000x1_S4x100000 = val_main_v8 (F := Ideal) x0 x1 x2 := by
  funext j
  obtain ⟨b, n, rfl⟩ : ∃ (b : Fin 4) (n : Fin 100000), j = ix2 b n := ⟨j 0, j 1, eq_ix2 j⟩
  rw [Cert.ReferenceIdeal.RefValue.v8_apply, ← w0_apply]
  exact shapeCast_apply (w0 x0 x1 x2) shapeCasts_S400000x1_S4x100000 (ix2 b n) (ix2 (row b n) (0 : Fin 1)) (by
    rw [Shape.rowMajor_val_two, Shape.rowMajor_val_two]
    show (b.val * 100000 + n.val) * 1 + 0 = b.val * 100000 + n.val
    omega)

/-! ## The final weights -/

theorem weights_apply (b : Fin 4) (n : Fin 100000) :
    Cert.Mid.weights x7 x6 (w0 x0 x1 x2) (ix2 (row b n) (0 : Fin 1))
      = val_main_v53 (F := Ideal) x0 x1 x2 x6 x7 (ix3 b n (0 : Fin 1)) := by
  unfold Cert.Mid.weights
  rw [w0_cut]
  have h9 : transpose S100000x4 [1, 0] (val_main_v8 (F := Ideal) x0 x1 x2) transposes_S4x100000_S100000x4_1_0
      = val_main_v9 (F := Ideal) x0 x1 x2 := rfl
  rw [h9, ← Cert.Mid.ref_round1 x7 x6 x0 x1 x2, ← Cert.Mid.ref_round2 x7 x6 x0 x1 x2]
  rw [shapeCast_apply _ shapeCasts_S4x100000_S400000x1 (ix2 (row b n) (0 : Fin 1)) (ix2 b n) (by
    rw [Shape.rowMajor_val_two, Shape.rowMajor_val_two]
    show b.val * 100000 + n.val = (b.val * 100000 + n.val) * 1 + 0
    omega)]
  rw [Cert.ReferenceIdeal.RefValue.wfin_apply, ← Cert.ReferenceIdeal.RefValue.v8_apply]
  have t1 : transpose S4x100000 [1, 0] (val_main_v28 (F := Ideal) x0 x1 x2 x6 x7) transposes_S100000x4_S4x100000_1_0 (ix2 b n)
      = val_main_v28 (F := Ideal) x0 x1 x2 x6 x7 (ix2 n b) :=
    transpose_apply [1, 0] _ transposes_S100000x4_S4x100000_1_0 (ix2 b n) (ix2 n b) (fun a => match a with
      | ⟨0, _⟩ => rfl
      | ⟨1, _⟩ => rfl)
  have t2 : transpose S4x100000 [1, 0] (val_main_v50 (F := Ideal) x0 x1 x2 x6 x7) transposes_S100000x4_S4x100000_1_0 (ix2 b n)
      = val_main_v50 (F := Ideal) x0 x1 x2 x6 x7 (ix2 n b) :=
    transpose_apply [1, 0] _ transposes_S100000x4_S4x100000_1_0 (ix2 b n) (ix2 n b) (fun a => match a with
      | ⟨0, _⟩ => rfl
      | ⟨1, _⟩ => rfl)
  rw [← t1, ← t2]
  rfl

/-! ## The result -/

/-- THE TWO PROGRAMS' RESULTS ARE ONE FUNCTION of the arguments. -/
theorem result_eq : result x0 x1 x2 x3 x4 x5 x6 x7 = val_main_v79 (F := Ideal) x0 x1 x2 x3 x4 x5 x6 x7 := by
  funext i
  obtain ⟨b, n, c, rfl⟩ : ∃ (b : Fin 4) (n : Fin 100000) (c : Fin 128), i = ix3 b n c := ⟨i 0, i 1, i 2, eq_ix3 i⟩
  rw [Cert.ReferenceIdeal.RefValue.out_apply]
  unfold result
  rw [shapeCast_apply _ shapeCasts_S400000x128_S4x100000x128 (ix3 b n c) (ix2 (row b n) c) (by
    rw [Shape.rowMajor_val_two, Shape.rowMajor_val_three]; rfl)]
  show Cert.Spec.lnRow
      (fun k => Cert.Spec.vals (flat x0) (transpose S128x128 [1, 0] x3 transposes_S128x128_S128x128_1_0) (ix2 (row b n) k)
        * Cert.Mid.weights x7 x6 (w0 x0 x1 x2) (ix2 (row b n) (0 : Fin 1)))
      (fun k => shapeCast S1x128 x4 shapeCasts_S128_S1x128 (ix2 (0 : Fin 1) k))
      (fun k => shapeCast S1x128 x5 shapeCasts_S128_S1x128 (ix2 (0 : Fin 1) k)) c = _
  have ev : (fun k => Cert.Spec.vals (flat x0) (transpose S128x128 [1, 0] x3 transposes_S128x128_S128x128_1_0) (ix2 (row b n) k)
        * Cert.Mid.weights x7 x6 (w0 x0 x1 x2) (ix2 (row b n) (0 : Fin 1)))
      = fun k => (∑ j : Fin 128, x0 (ix3 b n j) * x3 (ix2 k j)) * val_main_v53 (F := Ideal) x0 x1 x2 x6 x7 (ix3 b n (0 : Fin 1)) :=
    funext fun k => congr (congrArg HMul.hMul (vals_apply x0 x3 b n k)) (weights_apply x0 x1 x2 x6 x7 b n)
  have eg : (fun k => shapeCast S1x128 x4 shapeCasts_S128_S1x128 (ix2 (0 : Fin 1) k)) = fun k => x4 (ix1 k) :=
    funext fun k => row128_apply x4 k
  have eb : (fun k => shapeCast S1x128 x5 shapeCasts_S128_S1x128 (ix2 (0 : Fin 1) k)) = fun k => x5 (ix1 k) :=
    funext fun k => row128_apply x5 k
  exact congrFun (congr (congr (congrArg Cert.Spec.lnRow ev) eg) eb) c

end Cert.Bridge

end
-- ==== Proof.KernelValue.lean ====
/-
  The idealized kernel program's result, as one function of its arguments.

  Put together: the projection region leaves the value projection and the starting-weight column of the flattened
  input; the host operations between the regions turn the column into the final weights; the normalisation region
  leaves the normalised rows; the closing reshape cuts them back into [4, 100000, 128].
-/
import proofs.«166303_j76166950027414_1_alg».proof.Proof.HostK
import proofs.«166303_j76166950027414_1_alg».proof.Proof.Proj
import proofs.«166303_j76166950027414_1_alg».proof.Proof.Norm
import proofs.«166303_j76166950027414_1_alg».proof.Proof.Bridge

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The result buffer's last contents are `Bridge.result` of the arguments as launched. -/
theorem W5_result : (W5 m ρ c (Proc.devRef .tc main_v49) : S4x100000x128.Idx → EReal)
    = Cert.Bridge.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [HostValue.W5_v49, Norm.final_out (V3 m ρ) c, HostValue.V3_v4_0, HostValue.V3_v45, HostValue.V3_v46, HostValue.V3_v47,
    Proj.final_vals (V1 m ρ) c, Proj.final_w0 (V1 m ρ) c, HostValue.V1_v0, HostValue.V1_v1, HostValue.V1_v2, HostValue.V1_v3]
  rfl

end Cert.KernelIdeal.KernelValue

end
-- ==== Proof.lean ====
/-
  A projection, two rounds of sparse propagation, and a layer normalisation: the kernel program against its reference.

  Both programs map the [4, 100000, 128] input X to the layer normalisation, along the feature axis, of
  (X · Wvᵀ) scaled per node by a weight.  The weight of node (b, n) is the mean over 16 channels of
  (X · Wkᵀ)(X · Wqᵀ), plus entry (n, b) of two rounds of the sparse propagation A ↦ Σ_{edges e into row r}
  value(e) · 0.7 · A[col(e)].  The kernel program does the projections in one region over the flattened node axis (blocks
  of 8000 rows), the propagation in host operations, and the normalisation in a second region; the reference is plain
  host operations.  At the ideal values every float is an extended real and every operation exact, so:
  * a matrix product block by block is the product (each output entry is one sum of products);
  * flattening, transposing and cutting back only re-index;
  * the kernel program scales by 0.7 after gathering and the reference before, which is the same entry by entry;
  * the two normalisations are the same formula on the same row.
  No step uses a law that fails at an infinity, so the precondition is not opened.
-/
import proofs.«166303_j76166950027414_1_alg».proof.Defs
import proofs.«166303_j76166950027414_1_alg».proof.Proof.Gen.Kernel
import proofs.«166303_j76166950027414_1_alg».proof.Proof.Gen.Kernel.Skeleton
import proofs.«166303_j76166950027414_1_alg».proof.Proof.Gen.Kernel.Launch
import proofs.«166303_j76166950027414_1_alg».proof.Proof.Gen.Kernel.Points
import proofs.«166303_j76166950027414_1_alg».proof.Proof.Gen.Kernel.Frame
import proofs.«166303_j76166950027414_1_alg».proof.Proof.Gen.KernelIdeal
import proofs.«166303_j76166950027414_1_alg».proof.Proof.Gen.KernelIdeal.Skeleton
import proofs.«166303_j76166950027414_1_alg».proof.Proof.Gen.KernelIdeal.Launch
import proofs.«166303_j76166950027414_1_alg».proof.Proof.Gen.KernelIdeal.Points
import proofs.«166303_j76166950027414_1_alg».proof.Proof.Gen.KernelIdeal.Frame
import proofs.«166303_j76166950027414_1_alg».proof.Proof.Gen.ReferenceIdeal
import proofs.«166303_j76166950027414_1_alg».proof.Proof.Gen.ReferenceIdeal.Run
import proofs.«166303_j76166950027414_1_alg».proof.Proof.Gen.ReferenceIdeal.Read
import proofs.«166303_j76166950027414_1_alg».proof.Proof.Gen.Pre_finite_inputs
import Idealize.ShloMosaic.Adequacy
import Idealize.ShloMosaic.Init
import proofs.«166303_j76166950027414_1_alg».proof.Proof.Run
import proofs.«166303_j76166950027414_1_alg».proof.Proof.KernelValue
import proofs.«166303_j76166950027414_1_alg».proof.Proof.Bridge

noncomputable section

namespace Cert.Proof

open Idealize.ShloMosaic Idealize.SL.Sem

/-- The word-level program runs and leaves its arguments alone. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- The reference's run, with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same result: the kernel program's run ends
    at `Bridge.result` of the arguments, the reference's at its composed term, and the two are one function. -/
theorem algebraic : Cert.algebraic_KernelIdeal_ReferenceIdeal := by
  intro m ρ m' ρ' _ hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KernelValue.W5_result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v79_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
